-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg7 : FVec F S128 .f32) (main_arg13 : FVec F S128 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg7 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S128 .f32 := broadcastInDim S128 ![] bcast_S_S128 main_cst_30
  let main_v79 : IVec S128 1 := cmpf .oge main_arg13 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  main_v81

def fn_part3 {F : FTy → Type} [FloatOps F] (main_arg7 : FVec F S128 .f32) (main_arg12 : FVec F S128 .f32) (main_arg13 : FVec F S128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg7 main_arg13 main_arg15 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg7 main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩

abbrev nBuf : Space → Nat
  | .hbm => 117
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S50000, .i32⟩
  | .hbm, ⟨21, _⟩ => ⟨S650000, .i32⟩
  | .hbm, ⟨22, _⟩ => ⟨S650000, .i32⟩
  | .hbm, ⟨23, _⟩ => ⟨S_, .f32⟩
  | .hbm, ⟨24, _⟩ => ⟨S650000, .f32⟩
  | .hbm, ⟨25, _⟩ => ⟨S_, .f32⟩
  | .hbm, ⟨26, _⟩ => ⟨S50000, .f32⟩
  | .hbm, ⟨27, _⟩ => ⟨S650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .bf16⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000x128, .bf16⟩
  | .hbm, ⟨48, _⟩ => ⟨S650000x128, .f32⟩
  | .hbm, ⟨49, _⟩ => ⟨S_, .f32⟩
  | .hbm, ⟨50, _⟩ => ⟨S50000x128, .f32⟩
  | .hbm, ⟨51, _⟩ => ⟨S650000x1, .i32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S50000x1, .f32⟩
  | .hbm, ⟨67, _⟩ => ⟨S50000x128, .bf16⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x128, .bf16⟩
  | .hbm, ⟨77, _⟩ => ⟨S650000x128, .f32⟩
  | .hbm, ⟨78, _⟩ => ⟨S_, .f32⟩
  | .hbm, ⟨79, _⟩ => ⟨S50000x128, .f32⟩
  | .hbm, ⟨80, _⟩ => ⟨S650000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S1x128, .f32⟩
  | .hbm, ⟨94, _⟩ => ⟨S1x128, .f32⟩
  | .hbm, ⟨95, _⟩ => ⟨S50000x1, .f32⟩
  | .hbm, ⟨96, _⟩ => ⟨S50000x64, .bf16⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x64, .bf16⟩
  | .hbm, ⟨106, _⟩ => ⟨S650000x64, .f32⟩
  | .hbm, ⟨107, _⟩ => ⟨S_, .f32⟩
  | .hbm, ⟨108, _⟩ => ⟨S50000x64, .f32⟩
  | .hbm, ⟨109, _⟩ => ⟨S650000x1, .i32⟩
  | .hbm, ⟨110, _⟩ => ⟨S50000x64, .f32⟩
  | .hbm, ⟨111, _⟩ => ⟨S50000x1, .f32⟩
  | .hbm, ⟨112, _⟩ => ⟨S50000x64, .f32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S5000x1, .f32⟩
  | .local _ .vmem, ⟨13, _⟩ => ⟨S5000x1, .f32⟩
  | .local _ .vmem, ⟨14, _⟩ => ⟨S5000x128, .bf16⟩
  | .local _ .vmem, ⟨15, _⟩ => ⟨S5000x128, .bf16⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S128x64, .f32⟩
  | .local _ .vmem, ⟨21, _⟩ => ⟨S5000x1, .f32⟩
  | .local _ .vmem, ⟨22, _⟩ => ⟨S5000x1, .f32⟩
  | .local _ .vmem, ⟨23, _⟩ => ⟨S5000x64, .bf16⟩
  | .local _ .vmem, ⟨24, _⟩ => ⟨S5000x64, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_c_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S50000x1.size a
  hwx2_4 : ∀ i : grid2.Coords, EltTy.bits .f32 = 32 ∨ (Rect.block (s := S50000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .bf16 = 32 ∨ (Rect.block (s := S50000x64) S5000x64.size (cc2_transform_5 i) (hinb2_5 i)).WholeWords (EltTy.packing .bf16)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 226
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S1x600000, .i32⟩
  | 17 => ⟨S600000, .i32⟩
  | 18 => ⟨S1x600000, .i32⟩
  | 19 => ⟨S600000, .i32⟩
  | 20 => ⟨S50000, .i32⟩
  | 21 => ⟨S650000, .i32⟩
  | 22 => ⟨S650000, .i32⟩
  | 23 => ⟨S_, .f32⟩
  | 24 => ⟨S650000, .f32⟩
  | 25 => ⟨S_, .f32⟩
  | 26 => ⟨S50000, .f32⟩
  | 27 => ⟨S650000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S50000x128, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x1, .f32⟩
  | 67 => ⟨S650000x128, .f32⟩
  | 68 => ⟨S650000x128, .f32⟩
  | 69 => ⟨S_, .f32⟩
  | 70 => ⟨S50000x128, .f32⟩
  | 71 => ⟨S650000x1, .i32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000, .i32⟩
  | 96 => ⟨S650000, .i32⟩
  | 97 => ⟨S650000, .i32⟩
  | 98 => ⟨S_, .f32⟩
  | 99 => ⟨S650000, .f32⟩
  | 100 => ⟨S_, .f32⟩
  | 101 => ⟨S50000, .f32⟩
  | 102 => ⟨S650000x1, .i32⟩
  | 103 => ⟨S50000, .f32⟩
  | 104 => ⟨S_, .f32⟩
  | 105 => ⟨S50000, .f32⟩
  | 106 => ⟨S50000, .i1⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S650000, .i32⟩
  | 114 => ⟨S650000, .i1⟩
  | 115 => ⟨S_, .i32⟩
  | 116 => ⟨S650000, .i32⟩
  | 117 => ⟨S650000, .i32⟩
  | 118 => ⟨S650000, .i32⟩
  | 119 => ⟨S650000x1, .i32⟩
  | 120 => ⟨S650000, .f32⟩
  | 121 => ⟨S_, .i32⟩
  | 122 => ⟨S650000, .i32⟩
  | 123 => ⟨S650000, .i1⟩
  | 124 => ⟨S_, .i32⟩
  | 125 => ⟨S650000, .i32⟩
  | 126 => ⟨S650000, .i32⟩
  | 127 => ⟨S650000, .i32⟩
  | _ => ⟨S50000x128, .f32⟩

abbrev hbmTy0_1 (i : Nat) : BufTy := match i % 128 with
  | 0 => ⟨S650000x1, .i32⟩
  | 1 => ⟨S650000, .f32⟩
  | 2 => ⟨S650000, .f32⟩
  | 3 => ⟨S50000x128, .f32⟩
  | 4 => ⟨S_, .i32⟩
  | 5 => ⟨S650000, .i32⟩
  | 6 => ⟨S650000, .i1⟩
  | 7 => ⟨S_, .i32⟩
  | 8 => ⟨S650000, .i32⟩
  | 9 => ⟨S650000, .i32⟩
  | 10 => ⟨S650000, .i32⟩
  | 11 => ⟨S650000x1, .i32⟩
  | 12 => ⟨S650000x128, .f32⟩
  | 13 => ⟨S650000x1, .f32⟩
  | 14 => ⟨S650000x128, .f32⟩
  | 15 => ⟨S650000x128, .f32⟩
  | 16 => ⟨S_, .f32⟩
  | 17 => ⟨S50000x128, .f32⟩
  | 18 => ⟨S650000x1, .i32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000, .i32⟩
  | 43 => ⟨S650000, .i32⟩
  | 44 => ⟨S650000, .i32⟩
  | 45 => ⟨S_, .f32⟩
  | 46 => ⟨S650000, .f32⟩
  | 47 => ⟨S_, .f32⟩
  | 48 => ⟨S50000, .f32⟩
  | 49 => ⟨S650000x1, .i32⟩
  | 50 => ⟨S50000, .f32⟩
  | 51 => ⟨S_, .f32⟩
  | 52 => ⟨S50000, .f32⟩
  | 53 => ⟨S50000, .i1⟩
  | 54 => ⟨S50000, .f32⟩
  | 55 => ⟨S_, .f32⟩
  | 56 => ⟨S_, .f32⟩
  | 57 => ⟨S50000, .f32⟩
  | 58 => ⟨S50000, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000, .f32⟩
  | 68 => ⟨S_, .i32⟩
  | 69 => ⟨S650000, .i32⟩
  | 70 => ⟨S650000, .i1⟩
  | 71 => ⟨S_, .i32⟩
  | 72 => ⟨S650000, .i32⟩
  | 73 => ⟨S650000, .i32⟩
  | 74 => ⟨S650000, .i32⟩
  | 75 => ⟨S650000x1, .i32⟩
  | 76 => ⟨S650000, .f32⟩
  | 77 => ⟨S650000, .f32⟩
  | 78 => ⟨S50000x64, .f32⟩
  | 79 => ⟨S_, .i32⟩
  | 80 => ⟨S650000, .i32⟩
  | 81 => ⟨S650000, .i1⟩
  | 82 => ⟨S_, .i32⟩
  | 83 => ⟨S650000, .i32⟩
  | 84 => ⟨S650000, .i32⟩
  | 85 => ⟨S650000, .i32⟩
  | 86 => ⟨S650000x1, .i32⟩
  | 87 => ⟨S650000x64, .f32⟩
  | 88 => ⟨S650000x1, .f32⟩
  | 89 => ⟨S650000x64, .f32⟩
  | 90 => ⟨S650000x64, .f32⟩
  | 91 => ⟨S_, .f32⟩
  | 92 => ⟨S50000x64, .f32⟩
  | 93 => ⟨S650000x1, .i32⟩
  | 94 => ⟨S50000x64, .f32⟩
  | 95 => ⟨S1x64, .f32⟩
  | 96 => ⟨S50000x64, .f32⟩
  | 97 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_call2_v0 : Ref sig .tc := ⟨.hbm, 109, rfl⟩
abbrev main_call2_v1 : Ref sig .tc := ⟨.hbm, 110, rfl⟩
abbrev main_v73 : Ref sig .tc := ⟨.hbm, 111, rfl⟩
abbrev main_c_14 : Ref sig .tc := ⟨.hbm, 112, rfl⟩
abbrev main_v74 : Ref sig .tc := ⟨.hbm, 113, rfl⟩
abbrev main_v75 : Ref sig .tc := ⟨.hbm, 114, rfl⟩
abbrev main_c_15 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_16 : Ref sig .tc := ⟨.hbm, 121, rfl⟩
abbrev main_v81 : Ref sig .tc := ⟨.hbm, 122, rfl⟩
abbrev main_v82 : Ref sig .tc := ⟨.hbm, 123, rfl⟩
abbrev main_c_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_18 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_20 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_call3_cst : Ref sig .tc := ⟨.hbm, 167, rfl⟩
abbrev main_call3_v0 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_22 : Ref sig .tc := ⟨.hbm, 173, rfl⟩
abbrev main_v125 : Ref sig .tc := ⟨.hbm, 174, rfl⟩
abbrev main_cst_23 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_24 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_25 : Ref sig .tc := ⟨.hbm, 183, rfl⟩
abbrev main_call4_v0 : Ref sig .tc := ⟨.hbm, 184, rfl⟩
abbrev main_call4_v1 : Ref sig .tc := ⟨.hbm, 185, rfl⟩
abbrev main_v132 : Ref sig .tc := ⟨.hbm, 186, rfl⟩
abbrev main_c_26 : Ref sig .tc := ⟨.hbm, 187, rfl⟩
abbrev main_v133 : Ref sig .tc := ⟨.hbm, 188, rfl⟩
abbrev main_v134 : Ref sig .tc := ⟨.hbm, 189, rfl⟩
abbrev main_c_27 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_28 : Ref sig .tc := ⟨.hbm, 196, rfl⟩
abbrev main_v140 : Ref sig .tc := ⟨.hbm, 197, rfl⟩
abbrev main_v141 : Ref sig .tc := ⟨.hbm, 198, rfl⟩
abbrev main_c_29 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_30 : Ref sig .tc := ⟨.hbm, 207, rfl⟩
abbrev main_v149 : Ref sig .tc := ⟨.hbm, 208, rfl⟩
abbrev main_v150 : Ref sig .tc := ⟨.hbm, 209, rfl⟩
abbrev main_c_31 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_32 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KernelRun.lean ====
/-
  The run of the idealized three-layer graph convolution with its RESULT named.

  The program is nine segments: three stretches of host operations, the first row-tiled product, a stretch (gather,
  scatter-add, the first normalization's scale and shift), the second product, a stretch, the third product, and a
  last stretch that adds the bias. The contents of every buffer at each segment boundary are a fold through the
  program from the launch memory; the last boundary's contents at the result buffer is what every weakly fair
  execution ends with. The statement below keeps that equation beside the sixteen unchanged arguments.
-/
import proofs.«130021_j22969485100000_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with
    the result buffer at the last boundary's contents and every argument array as launched. -/
theorem run : θ_run defs (onTc (τ := τ) (main (F := F))) ⟨m, fun _ => 0, ρ⟩ (fun r => ∀ c : Dev nD,
      r.2.mem ((c.tc : Thread nD τ).loc main_v83) = W9 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v83 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.RunValue

end
-- ==== Proof.KernelStages.lean ====
/-
  What the idealized kernel's buffers hold at each boundary between its segments, read back through the program.

  The edge indices (sources, destinations, each followed by one self-loop per node) and the per-node weight
  `dinv` (the inverse square root of the degree, zero at degree zero) are computed once, in the first stretches of host
  operations; nothing later writes them, so every later stretch and region finds them unchanged. The same holds of the
  argument arrays. Each of the three later stretches gathers the previous product's rows at the edge sources,
  scatter-adds them at the destinations, scales node `n`'s sum by `dinv n`, and (the first two) folds the next
  normalization into a scale and a shift per channel. What a stretch computes is stated from ANY contents `V` of the
  buffers it starts from; the boundaries then say which contents those are.
-/
import proofs.«130021_j22969485100000_2_alg».proof.Proof.Gen.KernelIdeal.Frame
import Idealize.ShloMosaic.PureOps.Ideal.Laws
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-- A buffer that no operation of a stretch writes keeps its contents through the stretch. -/
macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each stretch computes, from any contents -/

/-- Gather the rows at the edge sources `S` (a negative index counting from the end), add each into its destination's
    row (`D`), scale node `n`'s sum by `dv n`. -/
abbrev agg128 (S D : IVec S650000 32) (dv : FVec Ideal S50000 .f32) (rows : FVec Ideal S50000x128 .bf16) : FVec Ideal S50000x128 .f32 :=
  mulf (Host.scatterAdd scatter_S50000x128_S650000x1_S650000x128_1_0_0_1
          (broadcastInDim S50000x128 ![] bcast_S_S50000x128 (constant (F := Ideal) S_ .f32 0x00000000#32))
          (broadcastInDim S650000x1 ![0] bcast_S650000_S650000x1_0 D)
          (extf .f32 (Host.gather gather_S50000x128_S650000x1_S650000x128_1_0_n_n_0_1_1128 rows
            (broadcastInDim S650000x1 ![0] bcast_S650000_S650000x1_0
              (select (cmpi .slt S (broadcastInDim S650000 ![] bcast_S_S650000 (constantI S_ 32 0#32)))
                (addi S (broadcastInDim S650000 ![] bcast_S_S650000 (constantI S_ 32 50000#32))) S)))
            bitsLt_bf16_f32))
       (broadcastInDim S50000x128 ![0, 1] bcast_S50000x1_S50000x128_0_1
          (broadcastInDim S50000x1 ![0] bcast_S50000_S50000x1_0 dv))
abbrev agg64 (S D : IVec S650000 32) (dv : FVec Ideal S50000 .f32) (rows : FVec Ideal S50000x64 .bf16) : FVec Ideal S50000x64 .f32 :=
  mulf (Host.scatterAdd scatter_S50000x64_S650000x1_S650000x64_1_0_0_1
          (broadcastInDim S50000x64 ![] bcast_S_S50000x64 (constant (F := Ideal) S_ .f32 0x00000000#32))
          (broadcastInDim S650000x1 ![0] bcast_S650000_S650000x1_0 D)
          (extf .f32 (Host.gather gather_S50000x64_S650000x1_S650000x64_1_0_n_n_0_1_164 rows
            (broadcastInDim S650000x1 ![0] bcast_S650000_S650000x1_0
              (select (cmpi .slt S (broadcastInDim S650000 ![] bcast_S_S650000 (constantI S_ 32 0#32)))
                (addi S (broadcastInDim S650000 ![] bcast_S_S650000 (constantI S_ 32 50000#32))) S)))
            bitsLt_bf16_f32))
       (broadcastInDim S50000x64 ![0, 1] bcast_S50000x1_S50000x64_0_1
          (broadcastInDim S50000x1 ![0] bcast_S50000_S50000x1_0 dv))

/-- A normalization folded into one scale per channel: `g · rsqrt (v + ε)`. -/
abbrev scaleOf (g v : FVec Ideal S128 .f32) : FVec Ideal S128 .f32 :=
  mulf g (Host.rsqrt (addf v (broadcastInDim S128 ![] bcast_S_S128 (constant (F := Ideal) S_ .f32 0x3727C5AC#32))))
/-- … and one shift per channel: `(b − mean) · scale + β`. -/
abbrev shiftOf (b mean g v beta : FVec Ideal S128 .f32) : FVec Ideal S128 .f32 :=
  addf (mulf (subf b mean) (scaleOf g v)) beta

section Stretches
variable (V : Valuation τ sig (Elt Ideal))

set_option maxHeartbeats 4000000 in
theorem col_0 : StableHlo.after hostOps0_2 V (Proc.devRef .tc main_v15)
    = shapeCast S50000x1 ((V (Proc.devRef .tc main_v14)) : FVec Ideal S50000 .f32) shapeCasts_S50000_S50000x1 := by
  after_results
  rfl

set_option maxHeartbeats 4000000 in
theorem agg_1 : StableHlo.after hostOps1 V (Proc.devRef .tc main_v30)
    = agg128 (V (Proc.devRef .tc main_v5)) (V (Proc.devRef .tc main_v6)) (V (Proc.devRef .tc main_v14)) (V (Proc.devRef .tc main_v16)) := by
  after_results
set_option maxHeartbeats 4000000 in
theorem scale_1 : StableHlo.after hostOps1 V (Proc.devRef .tc main_v38)
    = shapeCast S1x128 (scaleOf (V (Proc.devRef .tc main_arg4)) (V (Proc.devRef .tc main_arg7))) shapeCasts_S128_S1x128 := by
  after_results
  rfl
set_option maxHeartbeats 4000000 in
theorem shift_1 : StableHlo.after hostOps1 V (Proc.devRef .tc main_v39)
    = shapeCast S1x128 (shiftOf (V (Proc.devRef .tc main_arg3)) (V (Proc.devRef .tc main_arg6)) (V (Proc.devRef .tc main_arg4)) (V (Proc.devRef .tc main_arg7)) (V (Proc.devRef .tc main_arg5))) shapeCasts_S128_S1x128 := by
  after_results
  rfl
set_option maxHeartbeats 4000000 in
theorem col_1 : StableHlo.after hostOps1 V (Proc.devRef .tc main_v40)
    = shapeCast S50000x1 ((V (Proc.devRef .tc main_v14)) : FVec Ideal S50000 .f32) shapeCasts_S50000_S50000x1 := by
  after_results
  rfl

set_option maxHeartbeats 4000000 in
theorem agg_2 : StableHlo.after hostOps2 V (Proc.devRef .tc main_v55)
    = agg128 (V (Proc.devRef .tc main_v5)) (V (Proc.devRef .tc main_v6)) (V (Proc.devRef .tc main_v14)) (V (Proc.devRef .tc main_v41)) := by
  after_results
set_option maxHeartbeats 4000000 in
theorem scale_2 : StableHlo.after hostOps2 V (Proc.devRef .tc main_v63)
    = shapeCast S1x128 (scaleOf (V (Proc.devRef .tc main_arg10)) (V (Proc.devRef .tc main_arg13))) shapeCasts_S128_S1x128 := by
  after_results
  rfl
set_option maxHeartbeats 4000000 in
theorem shift_2 : StableHlo.after hostOps2 V (Proc.devRef .tc main_v64)
    = shapeCast S1x128 (shiftOf (V (Proc.devRef .tc main_arg9)) (V (Proc.devRef .tc main_arg12)) (V (Proc.devRef .tc main_arg10)) (V (Proc.devRef .tc main_arg13)) (V (Proc.devRef .tc main_arg11))) shapeCasts_S128_S1x128 := by
  after_results
  rfl
set_option maxHeartbeats 4000000 in
theorem col_2 : StableHlo.after hostOps2 V (Proc.devRef .tc main_v65)
    = shapeCast S50000x1 ((V (Proc.devRef .tc main_v14)) : FVec Ideal S50000 .f32) shapeCasts_S50000_S50000x1 := by
  after_results
  rfl

set_option maxHeartbeats 4000000 in
theorem out_3 : StableHlo.after hostOps3 V (Proc.devRef .tc main_v83)
    = addf (agg64 (V (Proc.devRef .tc main_v5)) (V (Proc.devRef .tc main_v6)) (V (Proc.devRef .tc main_v14)) (V (Proc.devRef .tc main_v66)))
        (broadcastInDim S50000x64 ![0, 1] bcast_S1x64_S50000x64_0_1
          (broadcastInDim S1x64 ![1] bcast_S64_S1x64_1 ((V (Proc.devRef .tc main_arg15)) : FVec Ideal S64 .f32))) := by
  after_results

end Stretches

/-! ## The boundaries -/

variable (m : (ℓ : Loc nD τ sig) → Buf (Elt Ideal) ℓ) (ρ : Dev nD → PrngReg) (c : Dev nD)

/-- Every edge's source node, then one self-loop per node: what the first stretch leaves in its buffer. -/
def srcs : IVec S650000 32 := W3 m ρ c (Proc.devRef .tc main_v5)
/-- Every edge's destination node, then one self-loop per node. -/
def dsts : IVec S650000 32 := W3 m ρ c (Proc.devRef .tc main_v6)
/-- The inverse square root of every node's degree, zero where the degree is zero. -/
def dinv : FVec Ideal S50000 .f32 := W3 m ρ c (Proc.devRef .tc main_v14)

theorem src_W3 : W3 m ρ c (Proc.devRef .tc main_v5) = srcs m ρ c := rfl
theorem dst_W3 : W3 m ρ c (Proc.devRef .tc main_v6) = dsts m ρ c := rfl
theorem dinv_W3 : W3 m ρ c (Proc.devRef .tc main_v14) = dinv m ρ c := rfl

/-- The weights as a column: the first product's third window. -/
theorem dinvcol_W3 : W3 m ρ c (Proc.devRef .tc main_v15) = shapeCast S50000x1 (dinv m ρ c) shapeCasts_S50000_S50000x1 := by
  have keep : StableHlo.after hostOps0_2 (W2 m ρ c) (Proc.devRef .tc main_v14) = W2 m ρ c (Proc.devRef .tc main_v14) := by
    unwritten hostOps0_2
  exact (col_0 (W2 m ρ c)).trans
    (congrArg (fun v : FVec Ideal S50000 .f32 => shapeCast S50000x1 v shapeCasts_S50000_S50000x1) keep.symm)

/-- An argument array is as launched when the first product starts. -/
theorem launch_W3 (a : Ref sig .tc)
    (h0 : StableHlo.after hostOps0 (W0 m ρ c) (Proc.devRef .tc a) = W0 m ρ c (Proc.devRef .tc a))
    (h1 : StableHlo.after hostOps0_1 (W1 m ρ c) (Proc.devRef .tc a) = W1 m ρ c (Proc.devRef .tc a))
    (h2 : StableHlo.after hostOps0_2 (W2 m ρ c) (Proc.devRef .tc a) = W2 m ρ c (Proc.devRef .tc a)) :
    W3 m ρ c (Proc.devRef .tc a) = m ((c : Thread nD τ).loc a) :=
  h2.trans (h1.trans h0)

theorem arg0_W3 : W3 m ρ c (Proc.devRef .tc main_arg0) = (m ((c : Thread nD τ).loc main_arg0)) := (launch_W3 m ρ c main_arg0 (by unwritten hostOps0) (by unwritten hostOps0_1) (by unwritten hostOps0_2))
theorem arg2_W3 : W3 m ρ c (Proc.devRef .tc main_arg2) = (m ((c : Thread nD τ).loc main_arg2)) := (launch_W3 m ρ c main_arg2 (by unwritten hostOps0) (by unwritten hostOps0_1) (by unwritten hostOps0_2))

section Keep
variable (b : Ref sig .tc)

theorem keep5 (n0 : ∀ w, Pipeline.arrRef spec0 w ≠ b)
    (h1 : StableHlo.after hostOps1 (W4 m ρ c) (Proc.devRef .tc b) = W4 m ρ c (Proc.devRef .tc b)) :
    W5 m ρ c (Proc.devRef .tc b) = W3 m ρ c (Proc.devRef .tc b) :=
  h1.trans (W4_of_ne m ρ c b n0)
theorem keep6 (n0 : ∀ w, Pipeline.arrRef spec0 w ≠ b)
    (h1 : StableHlo.after hostOps1 (W4 m ρ c) (Proc.devRef .tc b) = W4 m ρ c (Proc.devRef .tc b))
    (n1 : ∀ w, Pipeline.arrRef spec1 w ≠ b) :
    W6 m ρ c (Proc.devRef .tc b) = W3 m ρ c (Proc.devRef .tc b) :=
  (W6_of_ne m ρ c b n1).trans (keep5 m ρ c b n0 h1)
theorem keep7 (n0 : ∀ w, Pipeline.arrRef spec0 w ≠ b)
    (h1 : StableHlo.after hostOps1 (W4 m ρ c) (Proc.devRef .tc b) = W4 m ρ c (Proc.devRef .tc b))
    (n1 : ∀ w, Pipeline.arrRef spec1 w ≠ b)
    (h2 : StableHlo.after hostOps2 (W6 m ρ c) (Proc.devRef .tc b) = W6 m ρ c (Proc.devRef .tc b)) :
    W7 m ρ c (Proc.devRef .tc b) = W3 m ρ c (Proc.devRef .tc b) :=
  h2.trans (keep6 m ρ c b n0 h1 n1)
theorem keep8 (n0 : ∀ w, Pipeline.arrRef spec0 w ≠ b)
    (h1 : StableHlo.after hostOps1 (W4 m ρ c) (Proc.devRef .tc b) = W4 m ρ c (Proc.devRef .tc b))
    (n1 : ∀ w, Pipeline.arrRef spec1 w ≠ b)
    (h2 : StableHlo.after hostOps2 (W6 m ρ c) (Proc.devRef .tc b) = W6 m ρ c (Proc.devRef .tc b))
    (n2 : ∀ w, Pipeline.arrRef spec2 w ≠ b) :
    W8 m ρ c (Proc.devRef .tc b) = W3 m ρ c (Proc.devRef .tc b) :=
  (W8_of_ne m ρ c b n2).trans (keep7 m ρ c b n0 h1 n1 h2)

end Keep

/-! ### After the first product -/

theorem agg_W5 : W5 m ρ c (Proc.devRef .tc main_v30)
    = agg128 (srcs m ρ c) (dsts m ρ c) (dinv m ρ c) (W4 m ρ c (Proc.devRef .tc main_v16)) := by
  refine (agg_1 (W4 m ρ c)).trans ?_
  rw [W4_of_ne m ρ c main_v5 (by decide), W4_of_ne m ρ c main_v6 (by decide), W4_of_ne m ρ c main_v14 (by decide)]
  rfl
theorem scale_W5 : W5 m ρ c (Proc.devRef .tc main_v38) = shapeCast S1x128 (scaleOf (m ((c : Thread nD τ).loc main_arg4)) (m ((c : Thread nD τ).loc main_arg7))) shapeCasts_S128_S1x128 := by
  refine (scale_1 (W4 m ρ c)).trans ?_
  rw [((W4_of_ne m ρ c main_arg4 (by decide)).trans (launch_W3 m ρ c main_arg4 (by unwritten hostOps0) (by unwritten hostOps0_1) (by unwritten hostOps0_2))), ((W4_of_ne m ρ c main_arg7 (by decide)).trans (launch_W3 m ρ c main_arg7 (by unwritten hostOps0) (by unwritten hostOps0_1) (by unwritten hostOps0_2)))]
theorem shift_W5 : W5 m ρ c (Proc.devRef .tc main_v39)
    = shapeCast S1x128 (shiftOf (m ((c : Thread nD τ).loc main_arg3)) (m ((c : Thread nD τ).loc main_arg6)) (m ((c : Thread nD τ).loc main_arg4)) (m ((c : Thread nD τ).loc main_arg7)) (m ((c : Thread nD τ).loc main_arg5))) shapeCasts_S128_S1x128 := by
  refine (shift_1 (W4 m ρ c)).trans ?_
  rw [((W4_of_ne m ρ c main_arg3 (by decide)).trans (launch_W3 m ρ c main_arg3 (by unwritten hostOps0) (by unwritten hostOps0_1) (by unwritten hostOps0_2))), ((W4_of_ne m ρ c main_arg6 (by decide)).trans (launch_W3 m ρ c main_arg6 (by unwritten hostOps0) (by unwritten hostOps0_1) (by unwritten hostOps0_2))), ((W4_of_ne m ρ c main_arg4 (by decide)).trans (launch_W3 m ρ c main_arg4 (by unwritten hostOps0) (by unwritten hostOps0_1) (by unwritten hostOps0_2))), ((W4_of_ne m ρ c main_arg7 (by decide)).trans (launch_W3 m ρ c main_arg7 (by unwritten hostOps0) (by unwritten hostOps0_1) (by unwritten hostOps0_2))), ((W4_of_ne m ρ c main_arg5 (by decide)).trans (launch_W3 m ρ c main_arg5 (by unwritten hostOps0) (by unwritten hostOps0_1) (by unwritten hostOps0_2)))]
theorem col_W5 : W5 m ρ c (Proc.devRef .tc main_v40) = shapeCast S50000x1 (dinv m ρ c) shapeCasts_S50000_S50000x1 := by
  refine (col_1 (W4 m ρ c)).trans ?_
  rw [W4_of_ne m ρ c main_v14 (by decide)]
  rfl
theorem arg8_W5 : W5 m ρ c (Proc.devRef .tc main_arg8) = (m ((c : Thread nD τ).loc main_arg8)) :=
  (keep5 m ρ c main_arg8 (by decide) (by unwritten hostOps1)).trans (launch_W3 m ρ c main_arg8 (by unwritten hostOps0) (by unwritten hostOps0_1) (by unwritten hostOps0_2))

/-! ### After the second product -/

theorem agg_W7 : W7 m ρ c (Proc.devRef .tc main_v55)
    = agg128 (srcs m ρ c) (dsts m ρ c) (dinv m ρ c) (W6 m ρ c (Proc.devRef .tc main_v41)) := by
  refine (agg_2 (W6 m ρ c)).trans ?_
  rw [keep6 m ρ c main_v5 (by decide) (by unwritten hostOps1) (by decide),
    keep6 m ρ c main_v6 (by decide) (by unwritten hostOps1) (by decide),
    keep6 m ρ c main_v14 (by decide) (by unwritten hostOps1) (by decide)]
  rfl
theorem scale_W7 : W7 m ρ c (Proc.devRef .tc main_v63) = shapeCast S1x128 (scaleOf (m ((c : Thread nD τ).loc main_arg10)) (m ((c : Thread nD τ).loc main_arg13))) shapeCasts_S128_S1x128 := by
  refine (scale_2 (W6 m ρ c)).trans ?_
  rw [((keep6 m ρ c main_arg10 (by decide) (by unwritten hostOps1) (by decide)).trans (launch_W3 m ρ c main_arg10 (by unwritten hostOps0) (by unwritten hostOps0_1) (by unwritten hostOps0_2))), ((keep6 m ρ c main_arg13 (by decide) (by unwritten hostOps1) (by decide)).trans (launch_W3 m ρ c main_arg13 (by unwritten hostOps0) (by unwritten hostOps0_1) (by unwritten hostOps0_2)))]
theorem shift_W7 : W7 m ρ c (Proc.devRef .tc main_v64)
    = shapeCast S1x128 (shiftOf (m ((c : Thread nD τ).loc main_arg9)) (m ((c : Thread nD τ).loc main_arg12)) (m ((c : Thread nD τ).loc main_arg10)) (m ((c : Thread nD τ).loc main_arg13)) (m ((c : Thread nD τ).loc main_arg11))) shapeCasts_S128_S1x128 := by
  refine (shift_2 (W6 m ρ c)).trans ?_
  rw [((keep6 m ρ c main_arg9 (by decide) (by unwritten hostOps1) (by decide)).trans (launch_W3 m ρ c main_arg9 (by unwritten hostOps0) (by unwritten hostOps0_1) (by unwritten hostOps0_2))), ((keep6 m ρ c main_arg12 (by decide) (by unwritten hostOps1) (by decide)).trans (launch_W3 m ρ c main_arg12 (by unwritten hostOps0) (by unwritten hostOps0_1) (by unwritten hostOps0_2))), ((keep6 m ρ c main_arg10 (by decide) (by unwritten hostOps1) (by decide)).trans (launch_W3 m ρ c main_arg10 (by unwritten hostOps0) (by unwritten hostOps0_1) (by unwritten hostOps0_2))), ((keep6 m ρ c main_arg13 (by decide) (by unwritten hostOps1) (by decide)).trans (launch_W3 m ρ c main_arg13 (by unwritten hostOps0) (by unwritten hostOps0_1) (by unwritten hostOps0_2))), ((keep6 m ρ c main_arg11 (by decide) (by unwritten hostOps1) (by decide)).trans (launch_W3 m ρ c main_arg11 (by unwritten hostOps0) (by unwritten hostOps0_1) (by unwritten hostOps0_2)))]
theorem col_W7 : W7 m ρ c (Proc.devRef .tc main_v65) = shapeCast S50000x1 (dinv m ρ c) shapeCasts_S50000_S50000x1 := by
  refine (col_2 (W6 m ρ c)).trans ?_
  rw [keep6 m ρ c main_v14 (by decide) (by unwritten hostOps1) (by decide)]
  rfl
theorem arg14_W7 : W7 m ρ c (Proc.devRef .tc main_arg14) = (m ((c : Thread nD τ).loc main_arg14)) :=
  (keep7 m ρ c main_arg14 (by decide) (by unwritten hostOps1) (by decide) (by unwritten hostOps2)).trans (launch_W3 m ρ c main_arg14 (by unwritten hostOps0) (by unwritten hostOps0_1) (by unwritten hostOps0_2))

/-! ### The last stretch: the result -/

theorem result_W9 : W9 m ρ c (Proc.devRef .tc main_v83)
    = addf (agg64 (srcs m ρ c) (dsts m ρ c) (dinv m ρ c) (W8 m ρ c (Proc.devRef .tc main_v66)))
        (broadcastInDim S50000x64 ![0, 1] bcast_S1x64_S50000x64_0_1
          (broadcastInDim S1x64 ![1] bcast_S64_S1x64_1 (m ((c : Thread nD τ).loc main_arg15)))) := by
  refine (out_3 (W8 m ρ c)).trans ?_
  rw [keep8 m ρ c main_v5 (by decide) (by unwritten hostOps1) (by decide) (by unwritten hostOps2) (by decide),
    keep8 m ρ c main_v6 (by decide) (by unwritten hostOps1) (by decide) (by unwritten hostOps2) (by decide),
    keep8 m ρ c main_v14 (by decide) (by unwritten hostOps1) (by decide) (by unwritten hostOps2) (by decide),
    (keep8 m ρ c main_arg15 (by decide) (by unwritten hostOps1) (by decide) (by unwritten hostOps2) (by decide)).trans (launch_W3 m ρ c main_arg15 (by unwritten hostOps0) (by unwritten hostOps0_1) (by unwritten hostOps0_2))]
  rfl

end Cert.KernelIdeal.Stages

end
-- ==== Proof.GraphSums.lean ====
/-
  A graph convolution's host gather and scatter-add READ AT AN INDEX, and the algebra of extended reals
  that are real numbers.

  The graph has 50000 nodes and 650000 edges (self loops included); an array of node rows has shape [50000, C], an
  array of edge rows [650000, C], the edge endpoints are a [650000, 1] array of integer words. Here:
  * the gather of node rows at the edges' start indices is, at edge e and channel q, the operand's row rowOf idx e
    at channel q, where rowOf reads the start index signed and clamps it into [0, 49999] (gatherRows_apply), and the
    same for a gathered vector (gatherVec_apply);
  * an update element of a scatter into node rows can land at operand index (n, q') only if its edge's scatter index,
    read signed, is n (scatterRows_lands, scatterVec_lands): the node axis is an inserted window axis, so the result
    index on it is the unclamped signed start;
  * IsReal x says the extended real x is a real number; sums, differences, products, maxima and finite sums of real
    numbers are real, a scatter-add of real updates into a real operand is real, the reciprocal square root of a
    positive real is real; multiplication by a real constant distributes over a finite sum of real numbers
    (sum_mul_const; on the extended reals it does not in general), and a normalisation's scale can be folded into
    the affine map that follows it (bn_fold).
-/
import Idealize.ShloMosaic.Lib.ValueIdx
import Idealize.ShloMosaic.Lib.Pipeline.Value
import Idealize.ShloMosaic.PureOps.Ideal.Laws

noncomputable section

open scoped BigOperators

namespace Cert.GraphSums

open Idealize.ShloMosaic Idealize.ShloMosaic.ValueIdx

abbrev sN : Shape := ⟨1, ![50000]⟩
abbrev sNC (C : Nat) : Shape := ⟨2, ![50000, C]⟩
abbrev sM : Shape := ⟨1, ![650000]⟩
abbrev sM1 : Shape := ⟨2, ![650000, 1]⟩
abbrev sMC (C : Nat) : Shape := ⟨2, ![650000, C]⟩

abbrev rowsGather (C : Nat) (wf : GatherDims.WF (sNC C) sM1 (sMC C) [1] [0] [] [0] [] 1 ![1, C]) :
    GatherDims (sNC C) sM1 (sMC C) where
  offsetDims := [1]
  collapsedSliceDims := [0]
  operandBatchingDims := []
  startIndicesBatchingDims := []
  startIndexMap := [0]
  indexVectorDim := 1
  sliceSizes := ![1, C]
  wf := wf

abbrev vecGather (wf : GatherDims.WF sN sM1 sM [] [0] [] [0] [] 1 ![1]) : GatherDims sN sM1 sM where
  offsetDims := []
  collapsedSliceDims := [0]
  operandBatchingDims := []
  startIndicesBatchingDims := []
  startIndexMap := [0]
  indexVectorDim := 1
  sliceSizes := ![1]
  wf := wf

abbrev rowsScatter (C : Nat) (wf : ScatterDims.WF (sNC C) sM1 (sMC C) [1] [0] [0] 1) :
    ScatterDims (sNC C) sM1 (sMC C) where
  updateWindowDims := [1]
  insertedWindowDims := [0]
  scatterDimsToOperandDims := [0]
  indexVectorDim := 1
  wf := wf

abbrev vecScatter (wf : ScatterDims.WF sN sM1 sM [] [0] [0] 1) : ScatterDims sN sM1 sM where
  updateWindowDims := []
  insertedWindowDims := [0]
  scatterDimsToOperandDims := [0]
  indexVectorDim := 1
  wf := wf

/-- The node a start index selects: read signed and clamped into [0, 49999]. -/
def rowOf {w : Nat} (idx : IVec sM1 w) (e : Fin 650000) : Fin 50000 :=
  ⟨min (idx (ix2 e 0)).toInt.toNat 49999, by omega⟩

/-! ## The row gather read at an edge and a channel -/

/-- On the node axis the gathered row's operand coordinate is the clamped start index. -/
private theorem rowsGather_coord0 {w : Nat} (C : Nat)
    (wf : GatherDims.WF (sNC C) sM1 (sMC C) [1] [0] [] [0] [] 1 ![1, C])
    (idx : IVec sM1 w) (e : Fin 650000) (q : Fin C) :
    (rowsGather C wf).start (ix2 e q) idx 0 + (rowsGather C wf).batchCoord (ix2 e q) 0
      + (rowsGather C wf).offCoord (ix2 e q) 0 = (rowOf idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGather C wf).startIndexMap from List.mem_singleton.mpr rfl)]
  have hsi : (rowsGather C wf).siIdx (ix2 e q) ⟨List.idxOf (0 : Fin 2) (rowsGather C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the channel axis the gathered row's operand coordinate is the result's channel. -/
private theorem rowsGather_coord1 {w : Nat} (C : Nat)
    (wf : GatherDims.WF (sNC C) sM1 (sMC C) [1] [0] [] [0] [] 1 ![1, C])
    (idx : IVec sM1 w) (e : Fin 650000) (q : Fin C) :
    (rowsGather C wf).start (ix2 e q) idx 1 + (rowsGather C wf).batchCoord (ix2 e q) 1
      + (rowsGather C wf).offCoord (ix2 e q) 1 = q.val := by
  rw [GatherDims.batchCoord_eq_zero _ _ _ List.not_mem_nil]
  have hs : (rowsGather C wf).start (ix2 e q) idx 1 = 0 := by
    unfold GatherDims.start
    rw [dif_neg (show ¬ (1 : Fin 2) ∈ ([0] : List (Fin 2)) by decide)]
  rw [hs]
  simp only [Nat.add_zero, Nat.zero_add]
  have hk : (1 : Fin 2) ∈ (rowsGather C wf).sKept :=
    (GatherDims.mem_sKept _ _).mpr ⟨show ¬ (1 : Fin 2) ∈ ([0] : List (Fin 2)) by decide, List.not_mem_nil⟩
  unfold GatherDims.offCoord
  rw [dif_pos hk]
  rfl

theorem gatherRows_apply {α : Type} {w : Nat} (C : Nat)
    (wf : GatherDims.WF (sNC C) sM1 (sMC C) [1] [0] [] [0] [] 1 ![1, C])
    (x : (sNC C).Idx → α) (idx : IVec sM1 w) (e : Fin 650000) (q : Fin C) :
    Host.gather (rowsGather C wf) x idx (ix2 e q) = x (ix2 (rowOf idx e) q) := by
  unfold Host.gather
  congr 1
  funext a
  refine Fin.ext ?_
  match a with
  | ⟨0, _⟩ => exact rowsGather_coord0 C wf idx e q
  | ⟨1, _⟩ => exact rowsGather_coord1 C wf idx e q

/-! ## Where a scattered row lands -/

/-- The signed start of an update row's window on the node axis is its scatter index, read signed. -/
private theorem rowsScatter_start0 {w : Nat} (C : Nat) (wf : ScatterDims.WF (sNC C) sM1 (sMC C) [1] [0] [0] 1)
    (idx : IVec sM1 w) (u : (sMC C).Idx) :
    (rowsScatter C wf).start u idx 0 = (idx (ix2 ⟨(u 0).val, idx2_lt0 u⟩ 0)).toInt := by
  unfold ScatterDims.start
  rw [dif_pos (show (0 : Fin 2) ∈ (rowsScatter C wf).scatterDimsToOperandDims from List.mem_singleton.mpr rfl)]
  have hsi : (rowsScatter C wf).siIdx u ⟨List.idxOf (0 : Fin 2) (rowsScatter C wf).scatterDimsToOperandDims,
      List.idxOf_lt_length_iff.2 (List.mem_singleton.mpr rfl)⟩ = ix2 ⟨(u 0).val, idx2_lt0 u⟩ 0 := by
    funext b; refine Fin.ext ?_
    match b with
    | ⟨0, _⟩ => rfl
    | ⟨1, _⟩ => rfl
  rw [hsi]

/-- The node axis is an inserted window axis: its window coordinate is 0. -/
private theorem rowsScatter_window0 (C : Nat) (wf : ScatterDims.WF (sNC C) sM1 (sMC C) [1] [0] [0] 1)
    (u : (sMC C).Idx) : (rowsScatter C wf).window u 0 = 0 := by
  unfold ScatterDims.window
  have hk : ¬ (0 : Fin 2) ∈ (rowsScatter C wf).sKept := fun h => by
    have h2 := (List.mem_filter.mp h).2
    simp at h2
  rw [dif_neg hk]

/-- An update element that lands at operand index i has the scatter index of its row equal, read signed, to i's node. -/
theorem scatterRows_lands' {w : Nat} (C : Nat) (wf : ScatterDims.WF (sNC C) sM1 (sMC C) [1] [0] [0] 1)
    (idx : IVec sM1 w) (u : (sMC C).Idx) (i : (sNC C).Idx) :
    (rowsScatter C wf).resultIdx? u idx = some i →
      (idx (ix2 ⟨(u 0).val, idx2_lt0 u⟩ 0)).toInt = ((i 0).val : Int) := by
  intro h
  unfold ScatterDims.resultIdx? at h
  split at h
  · rename_i hin
    have h0 := hin 0
    have hi := congrFun (Option.some.inj h) 0
    have hv := congrArg Fin.val hi
    rw [rowsScatter_start0, rowsScatter_window0] at h0
    simp only [rowsScatter_start0, rowsScatter_window0] at hv
    omega
  · exact absurd h (by simp)

theorem scatterRows_lands {w : Nat} (C : Nat) (wf : ScatterDims.WF (sNC C) sM1 (sMC C) [1] [0] [0] 1)
    (idx : IVec sM1 w) (e : Fin 650000) (q : Fin C) (n : Fin 50000) (q' : Fin C) :
    (rowsScatter C wf).resultIdx? (ix2 e q) idx = some (ix2 n q') → (idx (ix2 e 0)).toInt = (n.val : Int) :=
  scatterRows_lands' C wf idx (ix2 e q) (ix2 n q')

/-! ## The vector forms -/

/-- The gathered vector element's operand coordinate is the clamped start index. -/
private theorem vecGather_coord0 {w : Nat} (wf : GatherDims.WF sN sM1 sM [] [0] [] [0] [] 1 ![1])
    (idx : IVec sM1 w) (e : Fin 650000) :
    (vecGather wf).start (ix1 e) idx 0 + (vecGather wf).batchCoord (ix1 e) 0
      + (vecGather wf).offCoord (ix1 e) 0 = (rowOf idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather wf).startIndexMap from List.mem_singleton.mpr rfl)]
  have hsi : (vecGather wf).siIdx (ix1 e) ⟨List.idxOf (0 : Fin 1) (vecGather wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE VECTOR GATHER READ AT AN EDGE: the operand at the edge's start index, read signed and clamped into [0, 49999]. -/
theorem gatherVec_apply {α : Type} {w : Nat} (wf : GatherDims.WF sN sM1 sM [] [0] [] [0] [] 1 ![1])
    (x : sN.Idx → α) (idx : IVec sM1 w) (e : Fin 650000) :
    Host.gather (vecGather wf) x idx (ix1 e) = x (ix1 (rowOf idx e)) := by
  unfold Host.gather
  congr 1
  funext a
  refine Fin.ext ?_
  match a with
  | ⟨0, _⟩ => exact vecGather_coord0 wf idx e

/-- The signed start of an update element's window is its scatter index, read signed. -/
private theorem vecScatter_start0 {w : Nat} (wf : ScatterDims.WF sN sM1 sM [] [0] [0] 1)
    (idx : IVec sM1 w) (u : sM.Idx) :
    (vecScatter wf).start u idx 0 = (idx (ix2 ⟨(u 0).val, (u 0).isLt⟩ 0)).toInt := by
  unfold ScatterDims.start
  rw [dif_pos (show (0 : Fin 1) ∈ (vecScatter wf).scatterDimsToOperandDims from List.mem_singleton.mpr rfl)]
  have hsi : (vecScatter wf).siIdx u ⟨List.idxOf (0 : Fin 1) (vecScatter wf).scatterDimsToOperandDims,
      List.idxOf_lt_length_iff.2 (List.mem_singleton.mpr rfl)⟩ = ix2 ⟨(u 0).val, (u 0).isLt⟩ 0 := by
    funext b; refine Fin.ext ?_
    match b with
    | ⟨0, _⟩ => rfl
    | ⟨1, _⟩ => rfl
  rw [hsi]
  rfl

/-- The one operand axis is an inserted window axis: its window coordinate is 0. -/
private theorem vecScatter_window0 (wf : ScatterDims.WF sN sM1 sM [] [0] [0] 1) (u : sM.Idx) :
    (vecScatter wf).window u 0 = 0 := by
  unfold ScatterDims.window
  have hk : ¬ (0 : Fin 1) ∈ (vecScatter wf).sKept := fun h => by
    have h2 := (List.mem_filter.mp h).2
    simp at h2
  rw [dif_neg hk]

/-- An update element that lands at operand index i has its scatter index equal, read signed, to i's node. -/
theorem scatterVec_lands' {w : Nat} (wf : ScatterDims.WF sN sM1 sM [] [0] [0] 1)
    (idx : IVec sM1 w) (u : sM.Idx) (i : sN.Idx) :
    (vecScatter wf).resultIdx? u idx = some i →
      (idx (ix2 ⟨(u 0).val, (u 0).isLt⟩ 0)).toInt = ((i 0).val : Int) := by
  intro h
  unfold ScatterDims.resultIdx? at h
  split at h
  · rename_i hin
    have h0 := hin 0
    have hi := congrFun (Option.some.inj h) 0
    have hv := congrArg Fin.val hi
    rw [vecScatter_start0, vecScatter_window0] at h0
    simp only [vecScatter_start0, vecScatter_window0] at hv
    omega
  · exact absurd h (by simp)

theorem scatterVec_lands {w : Nat} (wf : ScatterDims.WF sN sM1 sM [] [0] [0] 1)
    (idx : IVec sM1 w) (e : Fin 650000) (n : Fin 50000) :
    (vecScatter wf).resultIdx? (ix1 e) idx = some (ix1 n) → (idx (ix2 e 0)).toInt = (n.val : Int) :=
  scatterVec_lands' wf idx (ix1 e) (ix1 n)

/-! ## Extended reals that are real numbers -/

/-- An extended real that is a real number. -/
def IsReal (x : EReal) : Prop := ∃ r : ℝ, x = (r : EReal)

theorem IsReal.zero : IsReal 0 := ⟨0, rfl⟩
theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of real numbers is a real number. -/
theorem IsReal.sum {ι : Type*} (s : Finset ι) (a : ι → EReal) (h : ∀ u ∈ s, IsReal (a u)) :
    IsReal (∑ u ∈ s, a u) := by
  classical
  induction s using Finset.induction_on with
  | empty => rw [Finset.sum_empty]; exact IsReal.zero
  | insert x s hx ih =>
    rw [Finset.sum_insert hx]
    exact (h x (Finset.mem_insert_self x s)).add (ih fun u hu => h u (Finset.mem_insert_of_mem hu))

/-- Multiplication by a real constant distributes over a finite sum of real numbers (on the extended reals it does
    not in general: at infinities of opposite signs the two sides differ). -/
theorem sum_mul_const {ι : Type*} (s : Finset ι) (a : ι → EReal) (c : EReal)
    (ha : ∀ u ∈ s, IsReal (a u)) (hc : IsReal c) : (∑ u ∈ s, a u) * c = ∑ u ∈ s, a u * c := by
  classical
  obtain ⟨c', rfl⟩ := hc
  induction s using Finset.induction_on with
  | empty => rw [Finset.sum_empty, Finset.sum_empty, zero_mul]
  | insert x s hx ih =>
    rw [Finset.sum_insert hx, Finset.sum_insert hx, ← ih fun u hu => ha u (Finset.mem_insert_of_mem hu)]
    obtain ⟨p, hp⟩ := ha x (Finset.mem_insert_self x s)
    obtain ⟨t, ht⟩ := IsReal.sum s a fun u hu => ha u (Finset.mem_insert_of_mem hu)
    rw [hp, ht]
    norm_cast
    ring

/-- The same with the constant on the left. -/
theorem const_mul_sum {ι : Type*} (s : Finset ι) (a : ι → EReal) (c : EReal)
    (ha : ∀ u ∈ s, IsReal (a u)) (hc : IsReal c) : c * (∑ u ∈ s, a u) = ∑ u ∈ s, c * a u := by
  rw [mul_comm, sum_mul_const s a c ha hc]
  exact Finset.sum_congr rfl fun u _ => mul_comm _ _

/-- A scatter-add of real updates into a real operand is real at every index. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The reciprocal square root of a positive real number is a real number. -/
theorem isReal_rsqrt (x : EReal) (hx : IsReal x) (hpos : 0 < x) : IsReal (Ideal.rsqrt x) := by
  obtain ⟨r, rfl⟩ := hx
  have hr : 0 < r := EReal.coe_pos.mp hpos
  rw [Ideal.rsqrt_coe, if_neg (not_lt.mpr hr.le), if_neg hr.ne']
  exact ⟨_, rfl⟩

/-- Folding a normalisation's scale into the weights: on real numbers the two orders of the affine map agree. -/
theorem bn_fold (a b m r g β : EReal) (ha : IsReal a) (hb : IsReal b) (hm : IsReal m) (hr : IsReal r)
    (hg : IsReal g) (hβ : IsReal β) :
    max ((((a + b) - m) * r) * g + β) 0 = max (a * (g * r) + ((b - m) * (g * r) + β)) 0 := by
  obtain ⟨a, rfl⟩ := ha
  obtain ⟨b, rfl⟩ := hb
  obtain ⟨m, rfl⟩ := hm
  obtain ⟨r, rfl⟩ := hr
  obtain ⟨g, rfl⟩ := hg
  obtain ⟨β, rfl⟩ := hβ
  congr 1
  norm_cast
  ring

end Cert.GraphSums
-- ==== Proof.GcnLayer.lean ====
/-
  One graph-convolution layer, two ways, over the extended reals.

  Nodes are 0 … 49999; the 650000 "edges" are the 600000 given edges followed by one self-loop per node. `S` and `D`
  hold each edge's source and destination as 32-bit integers; `dinv` is a real weight per node (the inverse square
  root of its degree). A layer sends each node's feature row along every edge and adds what arrives:

      out[n, q] = Σ over the edges e that land on n of  xw[src e, q] · (dinv[src e] · dinv[dst e]).

  The reference computes exactly this: the product of the two gathered weights is broadcast along the feature axis
  and multiplies the gathered rows before the scatter-add. The kernel instead scales row `p` of `xw` by `dinv[p]`
  BEFORE the gather and multiplies row `n` of the scattered sum by `dinv[n]` AFTER it. The two agree because every
  edge that lands on `n` has destination `n` (so the second weight is the constant `dinv[n]` over the sum) and a
  constant real factor moves out of a finite sum of reals — the one step that needs the entries to be real numbers:
  over the extended reals `(a + b) · c = a · c + b · c` fails at the infinities.

  Index conventions of both programs: a start index is read as a signed integer; for a gather it is first wrapped
  (a negative `x` becomes `x + 50000`) and then clamped into `[0, 49999]`; for the scatter-add it is used as it is and
  an update whose row is outside `[0, 49999]` is dropped. An edge that is not dropped therefore has a destination in
  range, which the wrap and the clamp leave alone.
-/
import proofs.«130021_j22969485100000_2_alg».proof.Proof.GraphSums
import Idealize.ShloMosaic.Lib.ValueIdx
import Idealize.ShloMosaic.Lib.Pipeline.Value
import Idealize.ShloMosaic.PureOps.Ideal.Laws

noncomputable section

namespace Cert.GraphSums

open Idealize.ShloMosaic Idealize.ShloMosaic.ValueIdx
open scoped BigOperators

abbrev S0 : Shape := ⟨0, ![]⟩
abbrev sN1 : Shape := ⟨2, ![50000, 1]⟩

section Indices

variable (hbM : S0.BroadcastsInDim sM (![] : Fin 0 → Fin sM.rank))
variable (hbM1 : sM.BroadcastsInDim sM1 (![0] : Fin 1 → Fin sM1.rank))

/-- A negative index counts from the end: `x < 0` becomes `x + 50000`. -/
abbrev wrapNeg (X : IVec sM 32) : IVec sM 32 :=
  select (cmpi .slt X (broadcastInDim sM ![] hbM (constantI S0 32 0#32)))
    (addi X (broadcastInDim sM ![] hbM (constantI S0 32 50000#32))) X

/-- The indices as a column `[650000, 1]`: one index vector of length one per edge. -/
abbrev asCol {w : Nat} (X : IVec sM w) : IVec sM1 w := broadcastInDim sM1 ![0] hbM1 X

theorem asCol_apply {w : Nat} (X : IVec sM w) (e : Fin 650000) : asCol hbM1 X (ix2 e 0) = X (ix1 e) :=
  broadcastInDim_apply _ hbM1 X (ix2 e 0) (ix1 e) (fun a => match a with
    | ⟨0, _⟩ => by show e.val = if (650000 : Nat) = 1 then 0 else e.val; rw [if_neg (by decide)])

/-- An index that, read signed, is a node number is left alone by the wrap. -/
theorem wrapNeg_of_nonneg (X : IVec sM 32) (e : Fin 650000) (n : Fin 50000) (h : (X (ix1 e)).toInt = (n.val : Int)) :
    wrapNeg hbM X (ix1 e) = X (ix1 e) := by
  have hz : broadcastInDim sM ![] hbM (constantI S0 32 0#32) (ix1 e) = 0#32 :=
    broadcastInDim_apply _ hbM (constantI S0 32 0#32) (ix1 e) ix0 (fun a => a.elim0)
  show Scalar.select (IntOp.cmpi .slt (X (ix1 e)) (broadcastInDim sM ![] hbM (constantI S0 32 0#32) (ix1 e))) _ (X (ix1 e)) = _
  rw [hz]
  have hs : IntOp.cmpi .slt (X (ix1 e)) 0#32 = 0#1 := by
    show BitVec.ofBool ((X (ix1 e)).slt 0#32) = 0#1
    have : (X (ix1 e)).slt 0#32 = false := by
      rw [BitVec.slt, h]
      simp
    rw [this]; rfl
  rw [hs, select_zero]

/-- The node the wrapped and clamped index selects is that node. -/
theorem rowOf_wrapNeg (X : IVec sM 32) (e : Fin 650000) (n : Fin 50000) (h : (X (ix1 e)).toInt = (n.val : Int)) :
    rowOf (asCol hbM1 (wrapNeg hbM X)) e = n := by
  apply Fin.ext
  show min ((asCol hbM1 (wrapNeg hbM X)) (ix2 e 0)).toInt.toNat 49999 = n.val
  rw [asCol_apply, wrapNeg_of_nonneg hbM X e n h, h]
  have := n.isLt
  simp only [Int.toNat_natCast]
  omega

end Indices

section Layer

variable (C : Nat)
variable (wfs : ScatterDims.WF (sNC C) sM1 (sMC C) [1] [0] [0] 1)
variable (wfg : GatherDims.WF (sNC C) sM1 (sMC C) [1] [0] [] [0] [] 1 ![1, C])
variable (wfv : GatherDims.WF sN sM1 sM [] [0] [] [0] [] 1 ![1])
variable (hbM : S0.BroadcastsInDim sM (![] : Fin 0 → Fin sM.rank))
variable (hbM1 : sM.BroadcastsInDim sM1 (![0] : Fin 1 → Fin sM1.rank))
variable (hb0C : S0.BroadcastsInDim (sNC C) (![] : Fin 0 → Fin (sNC C).rank))
variable (hbN1 : sN.BroadcastsInDim sN1 (![0] : Fin 1 → Fin sN1.rank))
variable (hbN1C : sN1.BroadcastsInDim (sNC C) (![0, 1] : Fin 2 → Fin (sNC C).rank))
variable (hbM1C : sM1.BroadcastsInDim (sMC C) (![0, 1] : Fin 2 → Fin (sMC C).rank))

/-- A per-node weight broadcast along the feature axis reads the node's weight. -/
theorem nodeWeight_apply (d : FVec Ideal sN .f32) (n : Fin 50000) (q : Fin C) :
    broadcastInDim (sNC C) ![0, 1] hbN1C (broadcastInDim sN1 ![0] hbN1 d) (ix2 n q) = d (ix1 n) := by
  rw [broadcastInDim_apply _ hbN1C _ (ix2 n q) (ix2 n (0 : Fin 1)) (fun a => match a with
    | ⟨0, _⟩ => by show n.val = if (50000 : Nat) = 1 then 0 else n.val; rw [if_neg (by decide)]
    | ⟨1, _⟩ => by show (0 : Nat) = if (1 : Nat) = 1 then 0 else q.val; rw [if_pos rfl])]
  exact broadcastInDim_apply _ hbN1 d (ix2 n (0 : Fin 1)) (ix1 n) (fun a => match a with
    | ⟨0, _⟩ => by show n.val = if (50000 : Nat) = 1 then 0 else n.val; rw [if_neg (by decide)])

/-- A per-edge weight broadcast along the feature axis reads the edge's weight. -/
theorem edgeWeight_apply (g : FVec Ideal sM .f32) (e : Fin 650000) (q : Fin C) :
    broadcastInDim (sMC C) ![0, 1] hbM1C (broadcastInDim sM1 ![0] hbM1 g) (ix2 e q) = g (ix1 e) := by
  rw [broadcastInDim_apply _ hbM1C _ (ix2 e q) (ix2 e (0 : Fin 1)) (fun a => match a with
    | ⟨0, _⟩ => by show e.val = if (650000 : Nat) = 1 then 0 else e.val; rw [if_neg (by decide)]
    | ⟨1, _⟩ => by show (0 : Nat) = if (1 : Nat) = 1 then 0 else q.val; rw [if_pos rfl])]
  exact broadcastInDim_apply _ hbM1 g (ix2 e (0 : Fin 1)) (ix1 e) (fun a => match a with
    | ⟨0, _⟩ => by show e.val = if (650000 : Nat) = 1 then 0 else e.val; rw [if_neg (by decide)])

/-- THE LAYER, TWO WAYS: scaling the rows before the gather and the sums after the scatter-add is the reference's
    per-edge weight, when the features and the weights are real numbers. -/
theorem layer_two_ways (S D : IVec sM 32) (dinv : FVec Ideal sN .f32) (xw : FVec Ideal (sNC C) .f32)
    (xws : FVec Ideal (sNC C) .bf16) (hlt : FTy.bf16.bits < FTy.f32.bits)
    (hxws : ∀ (p : Fin 50000) (q : Fin C), xws (ix2 p q) = xw (ix2 p q) * dinv (ix1 p))
    (hxw : ∀ i, IsReal (xw i)) (hd : ∀ i, IsReal (dinv i)) :
    mulf (Host.scatterAdd (rowsScatter C wfs) (broadcastInDim (sNC C) ![] hb0C (constant S0 .f32 0x00000000#32))
            (asCol hbM1 D)
            (extf .f32 (Host.gather (rowsGather C wfg) xws (asCol hbM1 (wrapNeg hbM S))) hlt))
         (broadcastInDim (sNC C) ![0, 1] hbN1C (broadcastInDim sN1 ![0] hbN1 dinv))
    = Host.scatterAdd (rowsScatter C wfs) (broadcastInDim (sNC C) ![] hb0C (constant S0 .f32 0x00000000#32))
        (asCol hbM1 D)
        (mulf (Host.gather (rowsGather C wfg) xw (asCol hbM1 (wrapNeg hbM S)))
          (broadcastInDim (sMC C) ![0, 1] hbM1C (broadcastInDim sM1 ![0] hbM1
            (mulf (Host.gather (vecGather wfv) dinv (asCol hbM1 (wrapNeg hbM S)))
                  (Host.gather (vecGather wfv) dinv (asCol hbM1 (wrapNeg hbM D))))))) := by
  funext i
  obtain ⟨n, q, rfl⟩ : ∃ (n : Fin 50000) (q : Fin C), i = ix2 n q := ⟨i 0, i 1, eq_ix2 i⟩
  rw [mulf_apply, nodeWeight_apply C hbN1 hbN1C dinv n q]
  unfold Host.scatterAdd
  rw [Ideal.hostScatterAdd_def, Ideal.hostScatterAdd_def]
  unfold Ideal.hostScatterAdd
  have hz : broadcastInDim (sNC C) ![] hb0C (constant (F := Ideal) S0 .f32 0x00000000#32) (ix2 n q) = 0 := by
    rw [broadcastInDim_apply _ hb0C _ (ix2 n q) ix0 (fun a => a.elim0), constant_apply, Ideal.ofBits_zero_f32]
  rw [hz, zero_add, zero_add]
  -- every term of the kernel's sum is a real number
  have hterm : ∀ j ∈ Finset.univ.filter (fun j => (rowsScatter C wfs).resultIdx? j (asCol hbM1 D) = some (ix2 n q)),
      IsReal (extf .f32 (Host.gather (rowsGather C wfg) xws (asCol hbM1 (wrapNeg hbM S))) hlt j) := by
    intro j _
    obtain ⟨e, q', rfl⟩ : ∃ (e : Fin 650000) (q' : Fin C), j = ix2 e q' := ⟨j 0, j 1, eq_ix2 j⟩
    rw [extf_apply, gatherRows_apply, hxws]
    exact (hxw _).mul (hd _)
  rw [sum_mul_const _ _ _ hterm (hd _)]
  refine Finset.sum_congr rfl (fun j hj => ?_)
  obtain ⟨e, q', rfl⟩ : ∃ (e : Fin 650000) (q' : Fin C), j = ix2 e q' := ⟨j 0, j 1, eq_ix2 j⟩
  have hland := scatterRows_lands C wfs (asCol hbM1 D) e q' n q (Finset.mem_filter.mp hj).2
  rw [asCol_apply] at hland
  rw [extf_apply, gatherRows_apply, hxws, mulf_apply, gatherRows_apply, edgeWeight_apply C hbM1 hbM1C, mulf_apply,
    gatherVec_apply, gatherVec_apply, rowOf_wrapNeg hbM hbM1 D e n hland, mul_assoc]

/-- The reference's layer is a real number at every node and channel, when the features and the weights are. -/
theorem layer_real (S D : IVec sM 32) (dinv : FVec Ideal sN .f32) (xw : FVec Ideal (sNC C) .f32)
    (hxw : ∀ i, IsReal (xw i)) (hd : ∀ i, IsReal (dinv i)) :
    ∀ i, IsReal (Host.scatterAdd (rowsScatter C wfs) (broadcastInDim (sNC C) ![] hb0C (constant S0 .f32 0x00000000#32))
        (asCol hbM1 D)
        (mulf (Host.gather (rowsGather C wfg) xw (asCol hbM1 (wrapNeg hbM S)))
          (broadcastInDim (sMC C) ![0, 1] hbM1C (broadcastInDim sM1 ![0] hbM1
            (mulf (Host.gather (vecGather wfv) dinv (asCol hbM1 (wrapNeg hbM S)))
                  (Host.gather (vecGather wfv) dinv (asCol hbM1 (wrapNeg hbM D))))))) i) := by
  intro i
  unfold Host.scatterAdd
  rw [Ideal.hostScatterAdd_def]
  refine isReal_scatterAdd _ _ _ _ (fun k => ?_) (fun j => ?_) i
  · obtain ⟨n, q, rfl⟩ : ∃ (n : Fin 50000) (q : Fin C), k = ix2 n q := ⟨k 0, k 1, eq_ix2 k⟩
    rw [broadcastInDim_apply _ hb0C _ (ix2 n q) ix0 (fun a => a.elim0), constant_apply, Ideal.ofBits_zero_f32]
    exact IsReal.zero
  · obtain ⟨e, q', rfl⟩ : ∃ (e : Fin 650000) (q' : Fin C), j = ix2 e q' := ⟨j 0, j 1, eq_ix2 j⟩
    rw [mulf_apply, gatherRows_apply, edgeWeight_apply C hbM1 hbM1C, mulf_apply, gatherVec_apply, gatherVec_apply]
    exact (hxw _).mul ((hd _).mul (hd _))

end Layer

/-- A finite dot product of real numbers is a real number. -/
theorem dot_real {K : Nat} (a b : Fin K → EReal) (ha : ∀ k, IsReal (a k)) (hb : ∀ k, IsReal (b k)) :
    IsReal (∑ k : Fin K, a k * b k) :=
  IsReal.sum _ _ fun k _ => (ha k).mul (hb k)

/-- An [a] array cast to the column [a, 1] reads, at (i, u), the operand at i, whatever the unit coordinate u. -/
theorem shapeCast_col_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GraphSums

end
-- ==== Proof.ScaledProductRows.lean ====
/-
  The first graph-convolution layer's tiled product, read as one array.

  The region multiplies the 50000 × 128 feature array by the 128 × 128 weight matrix, ten blocks of 5000 rows at a
  time, and scales each row of the product by that row's entry of a 50000 × 1 column. Here: the stored block at an
  entry (the product into a zero accumulator is the plain sum of products over the contracted axis; a change of
  float format is the identity on extended reals), each block read as rows of the arrays the region found, and the
  ten blocks covering the output array, so that the array the region leaves is ONE function `G` of the three arrays
  it reads, for any contents of those arrays at the region's entry.
-/
import proofs.«130021_j22969485100000_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Rows0

open Cert.KernelIdeal Cert.KernelIdeal.Gen

variable (V : (c : Dev nD) → (b : Ref sig .tc) → Buf (Elt Ideal) ((c : Thread nD τ).loc b))

/-- The zero offsets of a whole-block access, spelt as the constant function. -/
theorem hz : (![0, 0] : Fin 2 → Nat) = fun _ => 0 := funext fun a => by fin_cases a <;> rfl

/-- A column [a,1] broadcast to [a,b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weight matrix, read at an entry

The contraction runs over the second axis of the left operand and the first axis of the right one; the other
two axes are the result's. -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at (p, q): the sum over the contracted axis of row p times column q. -/
theorem matmul_apply0 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## What one grid point stores, entry by entry -/

/-- The stored block at (p, q): row p of the feature block against column q of the weights, times the row's scale. -/
theorem pay_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [truncf_apply, mulf_apply, matmul_apply0, broadcastTo_a1_ab_apply, shapeCast_self]
  rfl

/-- The same at an index given as a whole. -/
theorem pay_apply_idx (x0 : Vec Ideal S5000x128 .f32) (x1 : Vec Ideal S128x128 .f32) (x2 : Vec Ideal S5000x1 .f32) (j : S5000x128.Idx) :
    k0_pay1 (F := Ideal) x0 x1 x2 j
      = (∑ k : Fin 128, x0 (ix2 (⟨(j 0).val, idx2_lt0 j⟩ : Fin 5000) k) * x1 (ix2 k (⟨(j 1).val, idx2_lt1 j⟩ : Fin 128)))
          * x2 (ix2 (⟨(j 0).val, idx2_lt0 j⟩ : Fin 5000) (0 : Fin 1)) := by
  obtain ⟨p, q, rfl⟩ : ∃ (p : Fin 5000) (q : Fin 128), j = ix2 p q := ⟨j 0, j 1, eq_ix2 j⟩
  exact pay_apply x0 x1 x2 p q

/-! ## The whole array -/

/-- The array the region leaves, as a function of the three arrays it reads: entry (r, q) is row r of the features
    against column q of the weights, times the scale of row r. -/
def G (a0 : S50000x128.Idx → EReal) (a1 : S128x128.Idx → EReal) (a2 : S50000x1.Idx → EReal) : S50000x128.Idx → EReal :=
  fun i => (∑ k : Fin 128, a0 (ix2 (⟨(i 0).val, idx2_lt0 i⟩ : Fin 50000) k) * a1 (ix2 k (⟨(i 1).val, idx2_lt1 i⟩ : Fin 128)))
      * a2 (ix2 (⟨(i 0).val, idx2_lt0 i⟩ : Fin 50000) (0 : Fin 1))

/-- The block index maps over the grid: the row-tiled windows sit at block row t, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's feature block is rows 5000 t … 5000 t + 4999 of the feature array. -/
theorem iblk_0_apply (c : Dev nD) (t : Fin cfg0.N) (x : S5000x128.Idx) (i : S50000x128.Idx)
    (h0 : (i 0).val = t.val * 5000 + (x 0).val) (h1 : (i 1).val = (x 1).val) :
    (iblk0 V c 0 t : Vec Ideal S5000x128 .f32) x = (V c main_arg0 : S50000x128.Idx → EReal) i := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- Every point's weight block is the whole weight matrix. -/
theorem iblk_1_apply (c : Dev nD) (t : Fin cfg0.N) (x : S128x128.Idx) (i : S128x128.Idx)
    (h0 : (i 0).val = (x 0).val) (h1 : (i 1).val = (x 1).val) :
    (iblk0 V c 1 t : Vec Ideal S128x128 .f32) x = (V c main_arg2 : S128x128.Idx → EReal) i := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * (x 0).val = (i 0).val; rw [e0, h0]; omega
  | ⟨1, _⟩ => show win0_1.index t (1 : Fin 2) * 128 + 1 * (x 1).val = (i 1).val; rw [e1, h1]; omega

/-- Point t's scale block is rows 5000 t … 5000 t + 4999 of the scale column. -/
theorem iblk_2_apply (c : Dev nD) (t : Fin cfg0.N) (x : S5000x1.Idx) (i : S50000x1.Idx)
    (h0 : (i 0).val = t.val * 5000 + (x 0).val) (h1 : (i 1).val = (x 1).val) :
    (iblk0 V c 2 t : Vec Ideal S5000x1 .f32) x = (V c main_v15 : S50000x1.Idx → EReal) i := by
  obtain ⟨-, -, -, -, e0, e1, -⟩ := idx_facts t
  unfold iblk0
  rw [View.read_apply]
  show V c main_v15 _ = V c main_v15 _
  refine congrArg (V c main_v15) ?_
  funext a
  apply Fin.ext
  match a with
  | ⟨0, _⟩ => show win0_2.index t (0 : Fin 2) * 5000 + 1 * (x 0).val = (i 0).val; rw [e0, h0]; omega
  | ⟨1, _⟩ => show win0_2.index t (1 : Fin 2) * 1 + 1 * (x 1).val = (i 1).val; rw [e1, h1]; omega

/-- What point t writes back is block t of G of the arrays the region found. -/
theorem flushed_eq (c : Dev nD) (t : Fin cfg0.N) :
    (dat0 V c).flushed 3 t = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  funext j
  have hj0 : (j 0).val < 5000 := (j 0).isLt
  have hj1 : (j 1).val < 128 := (j 1).isLt
  have hE0 : ((((cfg0.win 3).blk t).view.emb j) 0).val = t.val * 5000 + (j 0).val := by
    show win0_3.index t (0 : Fin 2) * 5000 + 1 * (j 0).val = _; rw [e0]; omega
  have hE1 : ((((cfg0.win 3).blk t).view.emb j) 1).val = (j 1).val := by
    show win0_3.index t (1 : Fin 2) * 128 + 1 * (j 1).val = _; rw [e1]; omega
  refine (pay_apply_idx (iblk0 V c 0 t) (iblk0 V c 1 t) (iblk0 V c 2 t) ((cfg0.win 3).xinj (grid0.coords t) j)).trans ?_
  rw [View.read_apply]
  unfold G
  refine congrArg₂ (· * ·) (Finset.sum_congr rfl fun k _ => congrArg₂ (· * ·) ?_ ?_) ?_
  · exact iblk_0_apply V c t _ _ hE0 rfl
  · exact iblk_1_apply V c t _ _ rfl hE1
  · exact iblk_2_apply V c t _ _ hE0 rfl

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row r lies in the block of point r / 5000, and every point writes its block back: the blocks cover the array. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e0, e1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- The array after the region, as one function of the arrays the region found. -/
theorem array0_fun (c : Dev nD) :
    (dat0 V c).arrAt 3 cfg0.N = G (V c main_arg0) (V c main_arg2) (V c main_v15) :=
  (dat0 V c).arrAt_eq_of_cover 3 (G (V c main_arg0) (V c main_arg2) (V c main_v15)) (fun t _ => flushed_eq V c t) cover

/-- G at an entry given by its coordinates. -/
theorem G_apply (a0 : S50000x128.Idx → EReal) (a1 : S128x128.Idx → EReal) (a2 : S50000x1.Idx → EReal) (p : Fin 50000) (q : Fin 128) :
    G a0 a1 a2 (ix2 p q) = (∑ k : Fin 128, a0 (ix2 p k) * a1 (ix2 k q)) * a2 (ix2 p (0 : Fin 1)) := rfl

/-- Entry by entry, with the three arrays named: entry (p, q) of the array the region leaves is row p of the
    features against column q of the weights, times the scale of row p. -/
theorem array0 (c : Dev nD) (p : Fin 50000) (q : Fin 128)
    (a0 : S50000x128.Idx → EReal) (a1 : S128x128.Idx → EReal) (a2 : S50000x1.Idx → EReal)
    (h0 : a0 = V c main_arg0) (h1 : a1 = V c main_arg2) (h2 : a2 = V c main_v15) :
    (dat0 V c).arrAt 3 cfg0.N (ix2 p q) = (∑ k : Fin 128, a0 (ix2 p k) * a1 (ix2 k q)) * a2 (ix2 p (0 : Fin 1)) := by
  subst h0 h1 h2
  rw [array0_fun]
  rfl

end Cert.KernelIdeal.Rows0

end
-- ==== Proof.NormalizedProductRows.lean ====
/-
  The second graph-convolution layer's tiled product, read as one array.

  The region takes the 50000 × 128 feature array ten blocks of 5000 rows at a time, normalises it channel by channel
  (times a row of 128 scales, plus a row of 128 shifts, then the positive part), multiplies by the 128 × 128 weight
  matrix, and scales each row of the product by that row's entry of a 50000 × 1 column. Here: the stored block at an
  entry (the product into a zero accumulator is the plain sum of products over the contracted axis; a change of
  float format is the identity on extended reals), each block read as rows of the arrays the region found, and the
  ten blocks covering the output array, so that the array the region leaves is ONE function `G` of the five arrays
  it reads, for any contents of those arrays at the region's entry.
-/
import proofs.«130021_j22969485100000_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Rows1

open Cert.KernelIdeal Cert.KernelIdeal.Gen

variable (V : (c : Dev nD) → (b : Ref sig .tc) → Buf (Elt Ideal) ((c : Thread nD τ).loc b))

/-- The zero offsets of a whole-block access, spelt as the constant function. -/
theorem hz : (![0, 0] : Fin 2 → Nat) = fun _ => 0 := funext fun a => by fin_cases a <;> rfl

/-- A column [a,1] broadcast to [a,b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weight matrix, read at an entry

The contraction runs over the second axis of the left operand and the first axis of the right one; the other
two axes are the result's. -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at (p, q): the sum over the contracted axis of row p times column q. -/
theorem matmul_apply0 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## What one grid point stores, entry by entry -/

/-- The stored block at (p, q): row p of the feature block, normalised channel by channel (scale, shift, then the
    positive part), against column q of the weights, times the row's scale. -/
theorem pay_apply (x0 : Vec Ideal S5000x128 .f32) (x1 : Vec Ideal S1x128 .f32) (x2 : Vec Ideal S1x128 .f32) (x3 : Vec Ideal S128x128 .f32) (x4 : Vec Ideal S5000x1 .f32) (p : Fin 5000) (q : Fin 128) :
    k1_pay1 (F := Ideal) x0 x1 x2 x3 x4 (ix2 p q)
      = (∑ k : Fin 128, max (x0 (ix2 p k) * x1 (ix2 (0 : Fin 1) k) + x2 (ix2 (0 : Fin 1) k)) 0 * x3 (ix2 k q)) * x4 (ix2 p (0 : Fin 1)) := by
  unfold k1_pay1
  rw [truncf_apply, mulf_apply, matmul_apply0, broadcastTo_a1_ab_apply]
  simp only [shapeCast_self]
  refine congrArg (· * x4 (ix2 p (0 : Fin 1))) (Finset.sum_congr rfl fun k _ => ?_)
  rw [truncf_apply, truncf_apply, maximumf_apply, addf_apply, mulf_apply, broadcast_apply, broadcastTo_1b_ab_apply, broadcastTo_1b_ab_apply]
  show max _ (Ideal.ofBits .f32 0x00000000#32) * _ = _
  rw [Ideal.ofBits_zero_f32]

/-- The same at an index given as a whole. -/
theorem pay_apply_idx (x0 : Vec Ideal S5000x128 .f32) (x1 : Vec Ideal S1x128 .f32) (x2 : Vec Ideal S1x128 .f32) (x3 : Vec Ideal S128x128 .f32) (x4 : Vec Ideal S5000x1 .f32) (j : S5000x128.Idx) :
    k1_pay1 (F := Ideal) x0 x1 x2 x3 x4 j
      = (∑ k : Fin 128, max (x0 (ix2 (⟨(j 0).val, idx2_lt0 j⟩ : Fin 5000) k) * x1 (ix2 (0 : Fin 1) k) + x2 (ix2 (0 : Fin 1) k)) 0
            * x3 (ix2 k (⟨(j 1).val, idx2_lt1 j⟩ : Fin 128)))
          * x4 (ix2 (⟨(j 0).val, idx2_lt0 j⟩ : Fin 5000) (0 : Fin 1)) := by
  obtain ⟨p, q, rfl⟩ : ∃ (p : Fin 5000) (q : Fin 128), j = ix2 p q := ⟨j 0, j 1, eq_ix2 j⟩
  exact pay_apply x0 x1 x2 x3 x4 p q

/-! ## The whole array -/

/-- The array the region leaves, as a function of the five arrays it reads: entry (r, q) is row r of the features,
    normalised channel by channel, against column q of the weights, times the scale of row r. -/
def G (a0 : S50000x128.Idx → EReal) (a1 : S1x128.Idx → EReal) (a2 : S1x128.Idx → EReal) (a3 : S128x128.Idx → EReal) (a4 : S50000x1.Idx → EReal) : S50000x128.Idx → EReal :=
  fun i => (∑ k : Fin 128, max (a0 (ix2 (⟨(i 0).val, idx2_lt0 i⟩ : Fin 50000) k) * a1 (ix2 (0 : Fin 1) k) + a2 (ix2 (0 : Fin 1) k)) 0
            * a3 (ix2 k (⟨(i 1).val, idx2_lt1 i⟩ : Fin 128)))
      * a4 (ix2 (⟨(i 0).val, idx2_lt0 i⟩ : Fin 50000) (0 : Fin 1))

/-- The block index maps over the grid: the row-tiled windows sit at block row t, the per-channel rows and the
    weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Point t's feature block is rows 5000 t … 5000 t + 4999 of the feature array. -/
theorem iblk_0_apply (c : Dev nD) (t : Fin cfg1.N) (x : S5000x128.Idx) (i : S50000x128.Idx)
    (h0 : (i 0).val = t.val * 5000 + (x 0).val) (h1 : (i 1).val = (x 1).val) :
    (iblk1 V c 0 t : Vec Ideal S5000x128 .f32) x = (V c main_v30 : S50000x128.Idx → EReal) i := by
  obtain ⟨e0, e1, -⟩ := idx_facts t
  unfold iblk1
  rw [View.read_apply]
  show V c main_v30 _ = V c main_v30 _
  refine congrArg (V c main_v30) ?_
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- Every point's block of per-channel scales is the whole row of scales. -/
theorem iblk_1_apply (c : Dev nD) (t : Fin cfg1.N) (x : S1x128.Idx) (i : S1x128.Idx)
    (h0 : (i 0).val = (x 0).val) (h1 : (i 1).val = (x 1).val) :
    (iblk1 V c 1 t : Vec Ideal S1x128 .f32) x = (V c main_v38 : S1x128.Idx → EReal) i := by
  obtain ⟨-, -, e0, e1, -⟩ := idx_facts t
  unfold iblk1
  rw [View.read_apply]
  show V c main_v38 _ = V c main_v38 _
  refine congrArg (V c main_v38) ?_
  funext a
  apply Fin.ext
  match a with
  | ⟨0, _⟩ => show win1_1.index t (0 : Fin 2) * 1 + 1 * (x 0).val = (i 0).val; rw [e0, h0]; omega
  | ⟨1, _⟩ => show win1_1.index t (1 : Fin 2) * 128 + 1 * (x 1).val = (i 1).val; rw [e1, h1]; omega

/-- Every point's block of per-channel shifts is the whole row of shifts. -/
theorem iblk_2_apply (c : Dev nD) (t : Fin cfg1.N) (x : S1x128.Idx) (i : S1x128.Idx)
    (h0 : (i 0).val = (x 0).val) (h1 : (i 1).val = (x 1).val) :
    (iblk1 V c 2 t : Vec Ideal S1x128 .f32) x = (V c main_v39 : S1x128.Idx → EReal) i := by
  obtain ⟨-, -, -, -, e0, e1, -⟩ := idx_facts t
  unfold iblk1
  rw [View.read_apply]
  show V c main_v39 _ = V c main_v39 _
  refine congrArg (V c main_v39) ?_
  funext a
  apply Fin.ext
  match a with
  | ⟨0, _⟩ => show win1_2.index t (0 : Fin 2) * 1 + 1 * (x 0).val = (i 0).val; rw [e0, h0]; omega
  | ⟨1, _⟩ => show win1_2.index t (1 : Fin 2) * 128 + 1 * (x 1).val = (i 1).val; rw [e1, h1]; omega

/-- Every point's weight block is the whole weight matrix. -/
theorem iblk_3_apply (c : Dev nD) (t : Fin cfg1.N) (x : S128x128.Idx) (i : S128x128.Idx)
    (h0 : (i 0).val = (x 0).val) (h1 : (i 1).val = (x 1).val) :
    (iblk1 V c 3 t : Vec Ideal S128x128 .f32) x = (V c main_arg8 : S128x128.Idx → EReal) i := by
  obtain ⟨-, -, -, -, -, -, e0, e1, -⟩ := idx_facts t
  unfold iblk1
  rw [View.read_apply]
  show V c main_arg8 _ = V c main_arg8 _
  refine congrArg (V c main_arg8) ?_
  funext a
  apply Fin.ext
  match a with
  | ⟨0, _⟩ => show win1_3.index t (0 : Fin 2) * 128 + 1 * (x 0).val = (i 0).val; rw [e0, h0]; omega
  | ⟨1, _⟩ => show win1_3.index t (1 : Fin 2) * 128 + 1 * (x 1).val = (i 1).val; rw [e1, h1]; omega

/-- Point t's scale block is rows 5000 t … 5000 t + 4999 of the scale column. -/
theorem iblk_4_apply (c : Dev nD) (t : Fin cfg1.N) (x : S5000x1.Idx) (i : S50000x1.Idx)
    (h0 : (i 0).val = t.val * 5000 + (x 0).val) (h1 : (i 1).val = (x 1).val) :
    (iblk1 V c 4 t : Vec Ideal S5000x1 .f32) x = (V c main_v40 : S50000x1.Idx → EReal) i := by
  obtain ⟨-, -, -, -, -, -, -, -, e0, e1, -⟩ := idx_facts t
  unfold iblk1
  rw [View.read_apply]
  show V c main_v40 _ = V c main_v40 _
  refine congrArg (V c main_v40) ?_
  funext a
  apply Fin.ext
  match a with
  | ⟨0, _⟩ => show win1_4.index t (0 : Fin 2) * 5000 + 1 * (x 0).val = (i 0).val; rw [e0, h0]; omega
  | ⟨1, _⟩ => show win1_4.index t (1 : Fin 2) * 1 + 1 * (x 1).val = (i 1).val; rw [e1, h1]; omega

/-- What point t writes back is block t of G of the arrays the region found. -/
theorem flushed_eq (c : Dev nD) (t : Fin cfg1.N) :
    (dat1 V c).flushed 5 t = ((cfg1.win 5).blk t).view.read (Elt Ideal) (G (V c main_v30) (V c main_v38) (V c main_v39) (V c main_arg8) (V c main_v40)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S128x128) hz, View.ld_unit_zero (S := S5000x1) hz]
  obtain ⟨-, -, -, -, -, -, -, -, -, -, e0, e1⟩ := idx_facts t
  funext j
  have hj0 : (j 0).val < 5000 := (j 0).isLt
  have hj1 : (j 1).val < 128 := (j 1).isLt
  have hE0 : ((((cfg1.win 5).blk t).view.emb j) 0).val = t.val * 5000 + (j 0).val := by
    show win1_5.index t (0 : Fin 2) * 5000 + 1 * (j 0).val = _; rw [e0]; omega
  have hE1 : ((((cfg1.win 5).blk t).view.emb j) 1).val = (j 1).val := by
    show win1_5.index t (1 : Fin 2) * 128 + 1 * (j 1).val = _; rw [e1]; omega
  refine (pay_apply_idx (iblk1 V c 0 t) (iblk1 V c 1 t) (iblk1 V c 2 t) (iblk1 V c 3 t) (iblk1 V c 4 t) ((cfg1.win 5).xinj (grid1.coords t) j)).trans ?_
  rw [View.read_apply]
  unfold G
  refine congrArg₂ (· * ·) (Finset.sum_congr rfl fun k _ => congrArg₂ (· * ·) (congrArg (max · 0) (congrArg₂ (· + ·) (congrArg₂ (· * ·) ?_ ?_) ?_)) ?_) ?_
  · exact iblk_0_apply V c t _ _ hE0 rfl
  · exact iblk_1_apply V c t _ _ rfl rfl
  · exact iblk_2_apply V c t _ _ rfl rfl
  · exact iblk_3_apply V c t _ _ rfl hE1
  · exact iblk_4_apply V c t _ _ hE0 rfl

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Row r lies in the block of point r / 5000, and every point writes its block back: the blocks cover the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- The array after the region, as one function of the arrays the region found. -/
theorem array1_fun (c : Dev nD) :
    (dat1 V c).arrAt 5 cfg1.N = G (V c main_v30) (V c main_v38) (V c main_v39) (V c main_arg8) (V c main_v40) :=
  (dat1 V c).arrAt_eq_of_cover 5 (G (V c main_v30) (V c main_v38) (V c main_v39) (V c main_arg8) (V c main_v40)) (fun t _ => flushed_eq V c t) cover

/-- G at an entry given by its coordinates. -/
theorem G_apply (a0 : S50000x128.Idx → EReal) (a1 : S1x128.Idx → EReal) (a2 : S1x128.Idx → EReal) (a3 : S128x128.Idx → EReal) (a4 : S50000x1.Idx → EReal) (p : Fin 50000) (q : Fin 128) :
    G a0 a1 a2 a3 a4 (ix2 p q)
      = (∑ k : Fin 128, max (a0 (ix2 p k) * a1 (ix2 (0 : Fin 1) k) + a2 (ix2 (0 : Fin 1) k)) 0 * a3 (ix2 k q)) * a4 (ix2 p (0 : Fin 1)) := rfl

/-- Entry by entry, with the five arrays named: entry (p, q) of the array the region leaves is row p of the features,
    normalised channel by channel, against column q of the weights, times the scale of row p. -/
theorem array1 (c : Dev nD) (p : Fin 50000) (q : Fin 128)
    (a0 : S50000x128.Idx → EReal) (a1 : S1x128.Idx → EReal) (a2 : S1x128.Idx → EReal) (a3 : S128x128.Idx → EReal) (a4 : S50000x1.Idx → EReal)
    (h0 : a0 = V c main_v30) (h1 : a1 = V c main_v38) (h2 : a2 = V c main_v39) (h3 : a3 = V c main_arg8) (h4 : a4 = V c main_v40) :
    (dat1 V c).arrAt 5 cfg1.N (ix2 p q)
      = (∑ k : Fin 128, max (a0 (ix2 p k) * a1 (ix2 (0 : Fin 1) k) + a2 (ix2 (0 : Fin 1) k)) 0 * a3 (ix2 k q)) * a4 (ix2 p (0 : Fin 1)) := by
  subst h0 h1 h2 h3 h4
  rw [array1_fun]
  rfl

end Cert.KernelIdeal.Rows1

end
-- ==== Proof.LogitProductRows.lean ====
/-
  The third graph-convolution layer's tiled product, read as one array.

  The region takes the 50000 × 128 feature array ten blocks of 5000 rows at a time, normalises it channel by channel
  (times a row of 128 scales, plus a row of 128 shifts, then the positive part), multiplies by the 128 × 64 weight
  matrix, and scales each row of the product by that row's entry of a 50000 × 1 column. Here: the stored block at an
  entry (the product into a zero accumulator is the plain sum of products over the contracted axis; a change of
  float format is the identity on extended reals), each block read as rows of the arrays the region found, and the
  ten blocks covering the 50000 × 64 output array, so that the array the region leaves is ONE function `G` of the
  five arrays it reads, for any contents of those arrays at the region's entry.
-/
import proofs.«130021_j22969485100000_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Rows2

open Cert.KernelIdeal Cert.KernelIdeal.Gen

variable (V : (c : Dev nD) → (b : Ref sig .tc) → Buf (Elt Ideal) ((c : Thread nD τ).loc b))

/-- The zero offsets of a whole-block access, spelt as the constant function. -/
theorem hz : (![0, 0] : Fin 2 → Nat) = fun _ => 0 := funext fun a => by fin_cases a <;> rfl

/-- A column [a,1] broadcast to [a,b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weight matrix, read at an entry

The contraction runs over the second axis of the left operand and the first axis of the right one; the other
two axes are the result's. -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at (p, q): the sum over the contracted axis of row p times column q. -/
theorem matmul_apply0 (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## What one grid point stores, entry by entry -/

/-- The stored block at (p, q): row p of the feature block, normalised channel by channel (scale, shift, then the
    positive part), against column q of the weights, times the row's scale. -/
theorem pay_apply (x0 : Vec Ideal S5000x128 .f32) (x1 : Vec Ideal S1x128 .f32) (x2 : Vec Ideal S1x128 .f32) (x3 : Vec Ideal S128x64 .f32) (x4 : Vec Ideal S5000x1 .f32) (p : Fin 5000) (q : Fin 64) :
    k2_pay1 (F := Ideal) x0 x1 x2 x3 x4 (ix2 p q)
      = (∑ k : Fin 128, max (x0 (ix2 p k) * x1 (ix2 (0 : Fin 1) k) + x2 (ix2 (0 : Fin 1) k)) 0 * x3 (ix2 k q)) * x4 (ix2 p (0 : Fin 1)) := by
  unfold k2_pay1
  rw [truncf_apply, mulf_apply, matmul_apply0, broadcastTo_a1_ab_apply]
  simp only [shapeCast_self]
  refine congrArg (· * x4 (ix2 p (0 : Fin 1))) (Finset.sum_congr rfl fun k _ => ?_)
  rw [truncf_apply, truncf_apply, maximumf_apply, addf_apply, mulf_apply, broadcast_apply, broadcastTo_1b_ab_apply, broadcastTo_1b_ab_apply]
  show max _ (Ideal.ofBits .f32 0x00000000#32) * _ = _
  rw [Ideal.ofBits_zero_f32]

/-- The same at an index given as a whole. -/
theorem pay_apply_idx (x0 : Vec Ideal S5000x128 .f32) (x1 : Vec Ideal S1x128 .f32) (x2 : Vec Ideal S1x128 .f32) (x3 : Vec Ideal S128x64 .f32) (x4 : Vec Ideal S5000x1 .f32) (j : S5000x64.Idx) :
    k2_pay1 (F := Ideal) x0 x1 x2 x3 x4 j
      = (∑ k : Fin 128, max (x0 (ix2 (⟨(j 0).val, idx2_lt0 j⟩ : Fin 5000) k) * x1 (ix2 (0 : Fin 1) k) + x2 (ix2 (0 : Fin 1) k)) 0
            * x3 (ix2 k (⟨(j 1).val, idx2_lt1 j⟩ : Fin 64)))
          * x4 (ix2 (⟨(j 0).val, idx2_lt0 j⟩ : Fin 5000) (0 : Fin 1)) := by
  obtain ⟨p, q, rfl⟩ : ∃ (p : Fin 5000) (q : Fin 64), j = ix2 p q := ⟨j 0, j 1, eq_ix2 j⟩
  exact pay_apply x0 x1 x2 x3 x4 p q

/-! ## The whole array -/

/-- The array the region leaves, as a function of the five arrays it reads: entry (r, q) is row r of the features,
    normalised channel by channel, against column q of the weights, times the scale of row r. -/
def G (a0 : S50000x128.Idx → EReal) (a1 : S1x128.Idx → EReal) (a2 : S1x128.Idx → EReal) (a3 : S128x64.Idx → EReal) (a4 : S50000x1.Idx → EReal) : S50000x64.Idx → EReal :=
  fun i => (∑ k : Fin 128, max (a0 (ix2 (⟨(i 0).val, idx2_lt0 i⟩ : Fin 50000) k) * a1 (ix2 (0 : Fin 1) k) + a2 (ix2 (0 : Fin 1) k)) 0
            * a3 (ix2 k (⟨(i 1).val, idx2_lt1 i⟩ : Fin 64)))
      * a4 (ix2 (⟨(i 0).val, idx2_lt0 i⟩ : Fin 50000) (0 : Fin 1))

/-- The block index maps over the grid: the row-tiled windows sit at block row t, the per-channel rows and the
    weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Point t's feature block is rows 5000 t … 5000 t + 4999 of the feature array. -/
theorem iblk_0_apply (c : Dev nD) (t : Fin cfg2.N) (x : S5000x128.Idx) (i : S50000x128.Idx)
    (h0 : (i 0).val = t.val * 5000 + (x 0).val) (h1 : (i 1).val = (x 1).val) :
    (iblk2 V c 0 t : Vec Ideal S5000x128 .f32) x = (V c main_v55 : S50000x128.Idx → EReal) i := by
  obtain ⟨e0, e1, -⟩ := idx_facts t
  unfold iblk2
  rw [View.read_apply]
  show V c main_v55 _ = V c main_v55 _
  refine congrArg (V c main_v55) ?_
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- Every point's block of per-channel scales is the whole row of scales. -/
theorem iblk_1_apply (c : Dev nD) (t : Fin cfg2.N) (x : S1x128.Idx) (i : S1x128.Idx)
    (h0 : (i 0).val = (x 0).val) (h1 : (i 1).val = (x 1).val) :
    (iblk2 V c 1 t : Vec Ideal S1x128 .f32) x = (V c main_v63 : S1x128.Idx → EReal) i := by
  obtain ⟨-, -, e0, e1, -⟩ := idx_facts t
  unfold iblk2
  rw [View.read_apply]
  show V c main_v63 _ = V c main_v63 _
  refine congrArg (V c main_v63) ?_
  funext a
  apply Fin.ext
  match a with
  | ⟨0, _⟩ => show win2_1.index t (0 : Fin 2) * 1 + 1 * (x 0).val = (i 0).val; rw [e0, h0]; omega
  | ⟨1, _⟩ => show win2_1.index t (1 : Fin 2) * 128 + 1 * (x 1).val = (i 1).val; rw [e1, h1]; omega

/-- Every point's block of per-channel shifts is the whole row of shifts. -/
theorem iblk_2_apply (c : Dev nD) (t : Fin cfg2.N) (x : S1x128.Idx) (i : S1x128.Idx)
    (h0 : (i 0).val = (x 0).val) (h1 : (i 1).val = (x 1).val) :
    (iblk2 V c 2 t : Vec Ideal S1x128 .f32) x = (V c main_v64 : S1x128.Idx → EReal) i := by
  obtain ⟨-, -, -, -, e0, e1, -⟩ := idx_facts t
  unfold iblk2
  rw [View.read_apply]
  show V c main_v64 _ = V c main_v64 _
  refine congrArg (V c main_v64) ?_
  funext a
  apply Fin.ext
  match a with
  | ⟨0, _⟩ => show win2_2.index t (0 : Fin 2) * 1 + 1 * (x 0).val = (i 0).val; rw [e0, h0]; omega
  | ⟨1, _⟩ => show win2_2.index t (1 : Fin 2) * 128 + 1 * (x 1).val = (i 1).val; rw [e1, h1]; omega

/-- Every point's weight block is the whole weight matrix. -/
theorem iblk_3_apply (c : Dev nD) (t : Fin cfg2.N) (x : S128x64.Idx) (i : S128x64.Idx)
    (h0 : (i 0).val = (x 0).val) (h1 : (i 1).val = (x 1).val) :
    (iblk2 V c 3 t : Vec Ideal S128x64 .f32) x = (V c main_arg14 : S128x64.Idx → EReal) i := by
  obtain ⟨-, -, -, -, -, -, e0, e1, -⟩ := idx_facts t
  unfold iblk2
  rw [View.read_apply]
  show V c main_arg14 _ = V c main_arg14 _
  refine congrArg (V c main_arg14) ?_
  funext a
  apply Fin.ext
  match a with
  | ⟨0, _⟩ => show win2_3.index t (0 : Fin 2) * 128 + 1 * (x 0).val = (i 0).val; rw [e0, h0]; omega
  | ⟨1, _⟩ => show win2_3.index t (1 : Fin 2) * 64 + 1 * (x 1).val = (i 1).val; rw [e1, h1]; omega

/-- Point t's scale block is rows 5000 t … 5000 t + 4999 of the scale column. -/
theorem iblk_4_apply (c : Dev nD) (t : Fin cfg2.N) (x : S5000x1.Idx) (i : S50000x1.Idx)
    (h0 : (i 0).val = t.val * 5000 + (x 0).val) (h1 : (i 1).val = (x 1).val) :
    (iblk2 V c 4 t : Vec Ideal S5000x1 .f32) x = (V c main_v65 : S50000x1.Idx → EReal) i := by
  obtain ⟨-, -, -, -, -, -, -, -, e0, e1, -⟩ := idx_facts t
  unfold iblk2
  rw [View.read_apply]
  show V c main_v65 _ = V c main_v65 _
  refine congrArg (V c main_v65) ?_
  funext a
  apply Fin.ext
  match a with
  | ⟨0, _⟩ => show win2_4.index t (0 : Fin 2) * 5000 + 1 * (x 0).val = (i 0).val; rw [e0, h0]; omega
  | ⟨1, _⟩ => show win2_4.index t (1 : Fin 2) * 1 + 1 * (x 1).val = (i 1).val; rw [e1, h1]; omega

/-- What point t writes back is block t of G of the arrays the region found. -/
theorem flushed_eq (c : Dev nD) (t : Fin cfg2.N) :
    (dat2 V c).flushed 5 t = ((cfg2.win 5).blk t).view.read (Elt Ideal) (G (V c main_v55) (V c main_v63) (V c main_v64) (V c main_arg14) (V c main_v65)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz, View.ld_unit_zero (S := S128x64) hz, View.ld_unit_zero (S := S5000x1) hz]
  obtain ⟨-, -, -, -, -, -, -, -, -, -, e0, e1⟩ := idx_facts t
  funext j
  have hj0 : (j 0).val < 5000 := (j 0).isLt
  have hj1 : (j 1).val < 64 := (j 1).isLt
  have hE0 : ((((cfg2.win 5).blk t).view.emb j) 0).val = t.val * 5000 + (j 0).val := by
    show win2_5.index t (0 : Fin 2) * 5000 + 1 * (j 0).val = _; rw [e0]; omega
  have hE1 : ((((cfg2.win 5).blk t).view.emb j) 1).val = (j 1).val := by
    show win2_5.index t (1 : Fin 2) * 64 + 1 * (j 1).val = _; rw [e1]; omega
  refine (pay_apply_idx (iblk2 V c 0 t) (iblk2 V c 1 t) (iblk2 V c 2 t) (iblk2 V c 3 t) (iblk2 V c 4 t) ((cfg2.win 5).xinj (grid2.coords t) j)).trans ?_
  rw [View.read_apply]
  unfold G
  refine congrArg₂ (· * ·) (Finset.sum_congr rfl fun k _ => congrArg₂ (· * ·) (congrArg (max · 0) (congrArg₂ (· + ·) (congrArg₂ (· * ·) ?_ ?_) ?_)) ?_) ?_
  · exact iblk_0_apply V c t _ _ hE0 rfl
  · exact iblk_1_apply V c t _ _ rfl rfl
  · exact iblk_2_apply V c t _ _ rfl rfl
  · exact iblk_3_apply V c t _ _ rfl hE1
  · exact iblk_4_apply V c t _ _ hE0 rfl

/-- An index of the array is in point t's block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v66).slice (win2_5.rect t)).set ↔ _
  rw [View.set_slice_whole, Rect.mem_set_unit]
  exact Iff.rfl

/-- Row r lies in the block of point r / 5000, and every point writes its block back: the blocks cover the array. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, -, -, -, -, e0, e1⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e1]; omega

/-- The array after the region, as one function of the arrays the region found. -/
theorem array2_fun (c : Dev nD) :
    (dat2 V c).arrAt 5 cfg2.N = G (V c main_v55) (V c main_v63) (V c main_v64) (V c main_arg14) (V c main_v65) :=
  (dat2 V c).arrAt_eq_of_cover 5 (G (V c main_v55) (V c main_v63) (V c main_v64) (V c main_arg14) (V c main_v65)) (fun t _ => flushed_eq V c t) cover

/-- G at an entry given by its coordinates. -/
theorem G_apply (a0 : S50000x128.Idx → EReal) (a1 : S1x128.Idx → EReal) (a2 : S1x128.Idx → EReal) (a3 : S128x64.Idx → EReal) (a4 : S50000x1.Idx → EReal) (p : Fin 50000) (q : Fin 64) :
    G a0 a1 a2 a3 a4 (ix2 p q)
      = (∑ k : Fin 128, max (a0 (ix2 p k) * a1 (ix2 (0 : Fin 1) k) + a2 (ix2 (0 : Fin 1) k)) 0 * a3 (ix2 k q)) * a4 (ix2 p (0 : Fin 1)) := rfl

/-- Entry by entry, with the five arrays named: entry (p, q) of the array the region leaves is row p of the features,
    normalised channel by channel, against column q of the weights, times the scale of row p. -/
theorem array2 (c : Dev nD) (p : Fin 50000) (q : Fin 64)
    (a0 : S50000x128.Idx → EReal) (a1 : S1x128.Idx → EReal) (a2 : S1x128.Idx → EReal) (a3 : S128x64.Idx → EReal) (a4 : S50000x1.Idx → EReal)
    (h0 : a0 = V c main_v55) (h1 : a1 = V c main_v63) (h2 : a2 = V c main_v64) (h3 : a3 = V c main_arg14) (h4 : a4 = V c main_v65) :
    (dat2 V c).arrAt 5 cfg2.N (ix2 p q)
      = (∑ k : Fin 128, max (a0 (ix2 p k) * a1 (ix2 (0 : Fin 1) k) + a2 (ix2 (0 : Fin 1) k)) 0 * a3 (ix2 k q)) * a4 (ix2 p (0 : Fin 1)) := by
  subst h0 h1 h2 h3 h4
  rw [array2_fun]
  rfl

end Cert.KernelIdeal.Rows2

end
-- ==== Proof.InputFacts.lean ====
/-
  The precondition of the idealized kernel, decoded. The printed predicate is a conjunction (a chain of
  `and` on one-bit words) of seventeen tests of the argument arrays: for each of the fifteen float
  arrays, "every entry has absolute value below +∞", and for the two variance vectors, "every entry is
  at least 0". Read at the extended reals, the first says every entry is a real number and the second
  that every entry is nonnegative.
-/
import proofs.«130021_j22969485100000_2_alg».proof.Defs
import proofs.«130021_j22969485100000_2_alg».proof.Proof.Gen.Pre_finite_inputs
import Idealize.ShloMosaic.Lib.ReduceAll
import Idealize.ShloMosaic.Lib.ValueIdx
import Idealize.ShloMosaic.PureOps.Ideal.Laws

noncomputable section

namespace Cert.InputFacts

open Idealize.ShloMosaic Idealize.SL.Sem
open Cert.Pre_finite_inputs (S_)

/-- The rank-0 shape has one index. -/
instance subsingleton_S_ : Subsingleton S_.Idx := ⟨fun a b => funext fun d => d.elim0⟩

theorem ofBool_eq_one (b : Bool) : BitVec.ofBool b = 1#1 ↔ b = true := by cases b <;> decide

/-- The pattern 0x7F800000 is +∞. -/
theorem ofBits_inf : Ideal.ofBits .f32 0x7F800000#32 = (⊤ : EReal) := by simp [Ideal.ofBits, Ideal.ieee]

/-- An extended real whose absolute value `max x (-x)` is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct `all(|x| < +∞)`: the reduction by `and` of the entrywise test being 1 makes every entry a real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have h1 := Host.reduce_andi_all _ _ hr hu j e i
  have h2 : Ideal.cmp .olt (max (x i) (-(x i))) (Ideal.ofBits .f32 0x7F800000#32) = 1#1 := h1
  rw [ofBits_inf] at h2
  unfold Ideal.cmp at h2
  rw [ofBool_eq_one] at h2
  exact real_of_abs_lt_top (x i) (by simpa using h2)

/-- One conjunct `all(x ≥ 0)`: the reduction by `and` of the entrywise test being 1 makes every entry nonnegative. -/
theorem nonneg_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .oge x (broadcastInDim s ![] hb (constant (F := Ideal) S_ .f32 0x00000000#32)))
          (constantI S_ 1 1#1) hr hu j = 1#1) :
    ∀ i, (0 : EReal) ≤ x i := by
  intro i
  have h1 := Host.reduce_andi_all _ _ hr hu j e i
  have h2 : Ideal.cmp .oge (x i) (Ideal.ofBits .f32 0x00000000#32) = 1#1 := h1
  rw [Ideal.ofBits_zero_f32] at h2
  unfold Ideal.cmp at h2
  rw [ofBool_eq_one] at h2
  simpa using h2

/-- What the precondition says of the argument arrays of the memory `m` on the device `c`: the fifteen float
    arrays hold real numbers, and the two variance vectors (arguments 7 and 13) hold nonnegative ones. -/
structure ArgFacts (m : (ℓ : Loc Cert.KernelIdeal.nD Cert.KernelIdeal.τ Cert.KernelIdeal.sig) → Buf (Elt Ideal) ℓ)
    (c : Dev Cert.KernelIdeal.nD) : Prop where
  /-- Every entry of argument 0 is a real number. -/
  real0 : ∀ i, ∃ r : ℝ, m ((c.tc : Thread Cert.KernelIdeal.nD Cert.KernelIdeal.τ).loc Cert.KernelIdeal.main_arg0) i = (r : EReal)
  /-- Every entry of argument 2 is a real number. -/
  real2 : ∀ i, ∃ r : ℝ, m ((c.tc : Thread Cert.KernelIdeal.nD Cert.KernelIdeal.τ).loc Cert.KernelIdeal.main_arg2) i = (r : EReal)
  /-- Every entry of argument 3 is a real number. -/
  real3 : ∀ i, ∃ r : ℝ, m ((c.tc : Thread Cert.KernelIdeal.nD Cert.KernelIdeal.τ).loc Cert.KernelIdeal.main_arg3) i = (r : EReal)
  /-- Every entry of argument 4 is a real number. -/
  real4 : ∀ i, ∃ r : ℝ, m ((c.tc : Thread Cert.KernelIdeal.nD Cert.KernelIdeal.τ).loc Cert.KernelIdeal.main_arg4) i = (r : EReal)
  /-- Every entry of argument 5 is a real number. -/
  real5 : ∀ i, ∃ r : ℝ, m ((c.tc : Thread Cert.KernelIdeal.nD Cert.KernelIdeal.τ).loc Cert.KernelIdeal.main_arg5) i = (r : EReal)
  /-- Every entry of argument 6 is a real number. -/
  real6 : ∀ i, ∃ r : ℝ, m ((c.tc : Thread Cert.KernelIdeal.nD Cert.KernelIdeal.τ).loc Cert.KernelIdeal.main_arg6) i = (r : EReal)
  /-- Every entry of argument 7 is a real number. -/
  real7 : ∀ i, ∃ r : ℝ, m ((c.tc : Thread Cert.KernelIdeal.nD Cert.KernelIdeal.τ).loc Cert.KernelIdeal.main_arg7) i = (r : EReal)
  /-- Every entry of argument 8 is a real number. -/
  real8 : ∀ i, ∃ r : ℝ, m ((c.tc : Thread Cert.KernelIdeal.nD Cert.KernelIdeal.τ).loc Cert.KernelIdeal.main_arg8) i = (r : EReal)
  /-- Every entry of argument 9 is a real number. -/
  real9 : ∀ i, ∃ r : ℝ, m ((c.tc : Thread Cert.KernelIdeal.nD Cert.KernelIdeal.τ).loc Cert.KernelIdeal.main_arg9) i = (r : EReal)
  /-- Every entry of argument 10 is a real number. -/
  real10 : ∀ i, ∃ r : ℝ, m ((c.tc : Thread Cert.KernelIdeal.nD Cert.KernelIdeal.τ).loc Cert.KernelIdeal.main_arg10) i = (r : EReal)
  /-- Every entry of argument 11 is a real number. -/
  real11 : ∀ i, ∃ r : ℝ, m ((c.tc : Thread Cert.KernelIdeal.nD Cert.KernelIdeal.τ).loc Cert.KernelIdeal.main_arg11) i = (r : EReal)
  /-- Every entry of argument 12 is a real number. -/
  real12 : ∀ i, ∃ r : ℝ, m ((c.tc : Thread Cert.KernelIdeal.nD Cert.KernelIdeal.τ).loc Cert.KernelIdeal.main_arg12) i = (r : EReal)
  /-- Every entry of argument 13 is a real number. -/
  real13 : ∀ i, ∃ r : ℝ, m ((c.tc : Thread Cert.KernelIdeal.nD Cert.KernelIdeal.τ).loc Cert.KernelIdeal.main_arg13) i = (r : EReal)
  /-- Every entry of argument 14 is a real number. -/
  real14 : ∀ i, ∃ r : ℝ, m ((c.tc : Thread Cert.KernelIdeal.nD Cert.KernelIdeal.τ).loc Cert.KernelIdeal.main_arg14) i = (r : EReal)
  /-- Every entry of argument 15 is a real number. -/
  real15 : ∀ i, ∃ r : ℝ, m ((c.tc : Thread Cert.KernelIdeal.nD Cert.KernelIdeal.τ).loc Cert.KernelIdeal.main_arg15) i = (r : EReal)
  /-- Every entry of argument 7 (a variance vector) is nonnegative. -/
  nonneg7 : ∀ i, (0 : EReal) ≤ m ((c.tc : Thread Cert.KernelIdeal.nD Cert.KernelIdeal.τ).loc Cert.KernelIdeal.main_arg7) i
  /-- Every entry of argument 13 (a variance vector) is nonnegative. -/
  nonneg13 : ∀ i, (0 : EReal) ≤ m ((c.tc : Thread Cert.KernelIdeal.nD Cert.KernelIdeal.τ).loc Cert.KernelIdeal.main_arg13) i

/-- The precondition decoded. The predicate's value at its one index is the `and` of seventeen one-bit words,
    nested to the left; it is 1, so each of them is 1, and each is the reduction by `and` of an entrywise test. -/
theorem of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : ArgFacts m c := by
  have e81 := congrFun (h c) ValueIdx.ix0
  obtain ⟨e77, n13⟩ := IntOp.andi_eq_one.1 e81
  obtain ⟨e73, n7⟩ := IntOp.andi_eq_one.1 e77
  obtain ⟨e68, r15⟩ := IntOp.andi_eq_one.1 e73
  obtain ⟨e63, r14⟩ := IntOp.andi_eq_one.1 e68
  obtain ⟨e58, r13⟩ := IntOp.andi_eq_one.1 e63
  obtain ⟨e53, r12⟩ := IntOp.andi_eq_one.1 e58
  obtain ⟨e48, r11⟩ := IntOp.andi_eq_one.1 e53
  obtain ⟨e43, r10⟩ := IntOp.andi_eq_one.1 e48
  obtain ⟨e38, r9⟩ := IntOp.andi_eq_one.1 e43
  obtain ⟨e33, r8⟩ := IntOp.andi_eq_one.1 e38
  obtain ⟨e28, r7⟩ := IntOp.andi_eq_one.1 e33
  obtain ⟨e23, r6⟩ := IntOp.andi_eq_one.1 e28
  obtain ⟨e18, r5⟩ := IntOp.andi_eq_one.1 e23
  obtain ⟨e13, r4⟩ := IntOp.andi_eq_one.1 e18
  obtain ⟨e8, r3⟩ := IntOp.andi_eq_one.1 e13
  obtain ⟨r0, r2⟩ := IntOp.andi_eq_one.1 e8
  exact
    { real0 := real_of_all _ _ _ _ _ r0
      real2 := real_of_all _ _ _ _ _ r2
      real3 := real_of_all _ _ _ _ _ r3
      real4 := real_of_all _ _ _ _ _ r4
      real5 := real_of_all _ _ _ _ _ r5
      real6 := real_of_all _ _ _ _ _ r6
      real7 := real_of_all _ _ _ _ _ r7
      real8 := real_of_all _ _ _ _ _ r8
      real9 := real_of_all _ _ _ _ _ r9
      real10 := real_of_all _ _ _ _ _ r10
      real11 := real_of_all _ _ _ _ _ r11
      real12 := real_of_all _ _ _ _ _ r12
      real13 := real_of_all _ _ _ _ _ r13
      real14 := real_of_all _ _ _ _ _ r14
      real15 := real_of_all _ _ _ _ _ r15
      nonneg7 := nonneg_of_all _ _ _ _ _ n7
      nonneg13 := nonneg_of_all _ _ _ _ _ n13 }

end Cert.InputFacts

end
-- ==== Proof.ReferenceRows.lean ====
/-
  The reference program's stages read at an index, in closed form: each of its three matrix products is the
  finite sum of products along the contracted axis; each hidden layer is, entry by entry, the affine
  normalisation (add the bias, subtract the mean, scale by the reciprocal square root of the variance plus
  a small constant, scale, shift) of the aggregated product, cut off below at zero; the result is the last
  aggregated product plus the last bias. The degree normaliser's entries are real numbers.
-/
import proofs.«130021_j22969485100000_2_alg».proof.Proof.ReferenceRead
import Idealize.ShloMosaic.Lib.ValueIdx
import Idealize.ShloMosaic.PureOps.Ideal.Laws

noncomputable section

namespace Cert.ReferenceRows

open Idealize.ShloMosaic Idealize.ShloMosaic.ValueIdx
open Cert.ReferenceIdeal Cert.ReferenceIdeal.ReadP

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 x4 x5 x6 x7 : (⟨S128, .f32⟩ : BufTy).Contents (Elt Ideal))
  (x8 : (⟨S128x128, .f32⟩ : BufTy).Contents (Elt Ideal)) (x9 x10 x11 x12 x13 : (⟨S128, .f32⟩ : BufTy).Contents (Elt Ideal))
  (x14 : (⟨S128x64, .f32⟩ : BufTy).Contents (Elt Ideal)) (x15 : (⟨S64, .f32⟩ : BufTy).Contents (Elt Ideal))

/-! ## The three matrix products -/

/-- Entry (p, q) of the first product: the sum over k of x0[p, k] · x2[k, q]. -/
theorem product1_apply (p : Fin 50000) (q : Fin 128) :
    val_main_v30 (F := Ideal) x0 x2 (ix2 p q) = ∑ k : Fin 128, x0 (ix2 p k) * x2 (ix2 k q) := by
  rw [val_main_v30_apply]
  refine Finset.sum_congr rfl fun k _ => ?_
  have el : lidx_main_v30 (ix2 p q) k = ix2 p k := funext fun a => match a with | ⟨0, _⟩ => rfl | ⟨1, _⟩ => rfl
  have er : ridx_main_v30 (ix2 p q) k = ix2 k q := funext fun a => match a with | ⟨0, _⟩ => rfl | ⟨1, _⟩ => rfl
  rw [el, er]

/-- Entry (p, q) of the second product: the sum over k of (first hidden layer)[p, k] · x8[k, q]. -/
theorem product2_apply (p : Fin 50000) (q : Fin 128) :
    val_main_v89 (F := Ideal) x0 x1 x2 x3 x4 x5 x6 x7 x8 (ix2 p q)
      = ∑ k : Fin 128, val_main_v62 (F := Ideal) x0 x1 x2 x3 x4 x5 x6 x7 (ix2 p k) * x8 (ix2 k q) := by
  rw [val_main_v89_apply]
  refine Finset.sum_congr rfl fun k _ => ?_
  have el : lidx_main_v89 (ix2 p q) k = ix2 p k := funext fun a => match a with | ⟨0, _⟩ => rfl | ⟨1, _⟩ => rfl
  have er : ridx_main_v89 (ix2 p q) k = ix2 k q := funext fun a => match a with | ⟨0, _⟩ => rfl | ⟨1, _⟩ => rfl
  rw [el, er]

/-- Entry (p, q) of the third product: the sum over k of (second hidden layer)[p, k] · x14[k, q]. -/
theorem product3_apply (p : Fin 50000) (q : Fin 64) :
    val_main_v148 (F := Ideal) x0 x1 x2 x3 x4 x5 x6 x7 x8 x9 x10 x11 x12 x13 x14 (ix2 p q)
      = ∑ k : Fin 128, val_main_v121 (F := Ideal) x0 x1 x2 x3 x4 x5 x6 x7 x8 x9 x10 x11 x12 x13 (ix2 p k) * x14 (ix2 k q) := by
  rw [val_main_v148_apply]
  refine Finset.sum_congr rfl fun k _ => ?_
  have el : lidx_main_v148 (ix2 p q) k = ix2 p k := funext fun a => match a with | ⟨0, _⟩ => rfl | ⟨1, _⟩ => rfl
  have er : ridx_main_v148 (ix2 p q) k = ix2 k q := funext fun a => match a with | ⟨0, _⟩ => rfl | ⟨1, _⟩ => rfl
  rw [el, er]

/-! ## The two hidden layers and the result -/

/-- Entry (p, k) of the first hidden layer, from the first aggregated product. -/
theorem hidden1_apply (p : Fin 50000) (k : Fin 128) :
    val_main_v62 (F := Ideal) x0 x1 x2 x3 x4 x5 x6 x7 (ix2 p k)
      = max ((((val_main_v43 (F := Ideal) x0 x1 x2 (ix2 p k) + x3 (ix1 k)) - x6 (ix1 k))
                * Ideal.rsqrt (x7 (ix1 k) + Ideal.ofBits .f32 0x3727C5AC#32)) * x4 (ix1 k) + x5 (ix1 k))
            (Ideal.ofBits .f32 0x00000000#32) := by
  rw [val_main_v62_apply, val_main_v61_apply, val_main_v58_apply, val_main_v55_apply, val_main_v49_apply,
    val_main_v46_apply, val_main_v45_apply, val_main_v44_apply, val_main_v48_apply, val_main_v47_apply,
    val_main_v54_apply, val_main_v53_apply, val_main_v52_apply, val_main_v51_apply, val_main_v50_apply,
    val_main_cst_9_apply, val_main_v57_apply, val_main_v56_apply, val_main_v60_apply, val_main_v59_apply,
    val_main_call1_v0_apply, val_main_call1_cst_apply]
  have e3 : idx_main_v44 (idx_main_v45 (ix2 p k)) = ix1 k := funext fun a => match a with | ⟨0, _⟩ => rfl
  have e6 : idx_main_v47 (idx_main_v48 (ix2 p k)) = ix1 k := funext fun a => match a with | ⟨0, _⟩ => rfl
  have e7 : idx_main_v53 (idx_main_v54 (ix2 p k)) = ix1 k := funext fun a => match a with | ⟨0, _⟩ => rfl
  have e4 : idx_main_v56 (idx_main_v57 (ix2 p k)) = ix1 k := funext fun a => match a with | ⟨0, _⟩ => rfl
  have e5 : idx_main_v59 (idx_main_v60 (ix2 p k)) = ix1 k := funext fun a => match a with | ⟨0, _⟩ => rfl
  rw [e3, e6, e7, e4, e5]
  rfl

/-- Entry (p, k) of the second hidden layer, from the second aggregated product. -/
theorem hidden2_apply (p : Fin 50000) (k : Fin 128) :
    val_main_v121 (F := Ideal) x0 x1 x2 x3 x4 x5 x6 x7 x8 x9 x10 x11 x12 x13 (ix2 p k)
      = max ((((val_main_v102 (F := Ideal) x0 x1 x2 x3 x4 x5 x6 x7 x8 (ix2 p k) + x9 (ix1 k)) - x12 (ix1 k))
                * Ideal.rsqrt (x13 (ix1 k) + Ideal.ofBits .f32 0x3727C5AC#32)) * x10 (ix1 k) + x11 (ix1 k))
            (Ideal.ofBits .f32 0x00000000#32) := by
  rw [val_main_v121_apply, val_main_v120_apply, val_main_v117_apply, val_main_v114_apply, val_main_v108_apply,
    val_main_v105_apply, val_main_v104_apply, val_main_v103_apply, val_main_v107_apply, val_main_v106_apply,
    val_main_v113_apply, val_main_v112_apply, val_main_v111_apply, val_main_v110_apply, val_main_v109_apply,
    val_main_cst_21_apply, val_main_v116_apply, val_main_v115_apply, val_main_v119_apply, val_main_v118_apply,
    val_main_call3_v0_apply, val_main_call3_cst_apply]
  have e9 : idx_main_v103 (idx_main_v104 (ix2 p k)) = ix1 k := funext fun a => match a with | ⟨0, _⟩ => rfl
  have e12 : idx_main_v106 (idx_main_v107 (ix2 p k)) = ix1 k := funext fun a => match a with | ⟨0, _⟩ => rfl
  have e13 : idx_main_v112 (idx_main_v113 (ix2 p k)) = ix1 k := funext fun a => match a with | ⟨0, _⟩ => rfl
  have e10 : idx_main_v115 (idx_main_v116 (ix2 p k)) = ix1 k := funext fun a => match a with | ⟨0, _⟩ => rfl
  have e11 : idx_main_v118 (idx_main_v119 (ix2 p k)) = ix1 k := funext fun a => match a with | ⟨0, _⟩ => rfl
  rw [e9, e12, e13, e10, e11]
  rfl

/-- Entry (p, q) of the result: the third aggregated product plus the last bias. -/
theorem result_apply (p : Fin 50000) (q : Fin 64) :
    val_main_v164 (F := Ideal) x0 x1 x2 x3 x4 x5 x6 x7 x8 x9 x10 x11 x12 x13 x14 x15 (ix2 p q)
      = val_main_v161 (F := Ideal) x0 x1 x2 x3 x4 x5 x6 x7 x8 x9 x10 x11 x12 x13 x14 (ix2 p q) + x15 (ix1 q) := by
  rw [val_main_v164_apply, val_main_v163_apply, val_main_v162_apply]
  have e15 : idx_main_v162 (idx_main_v163 (ix2 p q)) = ix1 q := funext fun a => match a with | ⟨0, _⟩ => rfl
  rw [e15]
  rfl

/-! ## The literals and the degree normaliser -/

/-- The pattern 0x3727C5AC is the real 10995116 / 2^40 (the small constant added to a variance). -/
theorem ofBits_eps : Ideal.ofBits .f32 0x3727C5AC#32 = (((10995116 : ℝ) / 2 ^ 40 : ℝ) : EReal) := by
  simp [Ideal.ofBits, Ideal.ieee, -EReal.coe_mul]; norm_num

/-- The small constant is a positive real. -/
theorem eps_pos : ∃ r : ℝ, 0 < r ∧ Ideal.ofBits .f32 0x3727C5AC#32 = (r : EReal) :=
  ⟨(10995116 : ℝ) / 2 ^ 40, by positivity, ofBits_eps⟩

/-- The pattern 0x3F800000 is 1. -/
theorem ofBits_one : Ideal.ofBits .f32 0x3F800000#32 = 1 := by
  simp [Ideal.ofBits, Ideal.ieee, -EReal.coe_mul]; norm_num

theorem ofBool_eq_one' (b : Bool) : BitVec.ofBool b = (1 : BitVec 1) ↔ b = true := by cases b <;> decide

theorem cmp_ogt (x y : EReal) : Ideal.cmp .ogt x y = BitVec.ofBool (decide (y < x)) := rfl

/-- The guarded reciprocal square root of a real r (1/√r where 0 < r, else 0) is a real. -/
theorem select_rsqrt_real (r : ℝ) :
    ∃ t : ℝ, Scalar.select (Ideal.cmp .ogt (r : EReal) 0) (Ideal.rsqrt (r : EReal)) (0 : EReal) = (t : EReal) := by
  unfold Scalar.select
  rw [cmp_ogt]
  by_cases h : 0 < r
  · have h' : (0 : EReal) < (r : EReal) := by exact_mod_cast h
    rw [if_pos ((ofBool_eq_one' _).2 (decide_eq_true h')), Ideal.rsqrt_coe, if_neg (not_lt.2 h.le), if_neg h.ne']
    exact ⟨_, rfl⟩
  · have h' : ¬ (0 : EReal) < (r : EReal) := by exact_mod_cast h
    rw [if_neg (fun e => h' (of_decide_eq_true ((ofBool_eq_one' _).1 e)))]
    exact ⟨0, rfl⟩

/-- A scatter-add of ones into zeros counts: every entry is a natural number. -/
theorem scatter_ones_nat {s si su : Shape} (d : ScatterDims s si su) {w : Nat} (x : s.Idx → EReal) (idx : IVec si w)
    (upd : su.Idx → EReal) (hx : ∀ i, x i = 0) (hu : ∀ j, upd j = 1) (i : s.Idx) :
    ∃ n : ℕ, Ideal.hostScatterAdd d x idx upd i = ((n : ℝ) : EReal) := by
  unfold Ideal.hostScatterAdd
  rw [hx, zero_add, Finset.sum_congr rfl (fun j _ => hu j), Finset.sum_const, ← EReal.coe_one, ← EReal.coe_nsmul,
    nsmul_eq_mul, mul_one]
  exact ⟨_, rfl⟩

/-- Every node's degree (the scatter-add of ones into zeros along the edge list) is a natural number. -/
theorem deg_nat (i : S50000.Idx) : ∃ n : ℕ, val_main_v10 (F := Ideal) x1 i = ((n : ℝ) : EReal) := by
  have h : val_main_v10 (F := Ideal) x1 i
      = Ideal.hostScatterAdd scatter_S50000_S650000x1_S650000_n_0_0_1 (val_main_v8 (F := Ideal))
          (val_main_v9 (F := Ideal) x1) (val_main_v7 (F := Ideal)) i := rfl
  rw [h]
  exact scatter_ones_nat _ _ _ _
    (fun i => by rw [val_main_v8_apply, val_main_cst_0_apply]; exact Ideal.ofBits_zero_f32)
    (fun j => by rw [val_main_v7_apply, val_main_cst_apply]; exact ofBits_one) i

/-- Every entry of the degree normaliser (1/√degree where the degree is positive, else 0) is a real. -/
theorem dinv_real' (i : S50000.Idx) : ∃ r : ℝ, val_main_v14 (F := Ideal) x1 i = (r : EReal) := by
  obtain ⟨n, hn⟩ := deg_nat x1 i
  rw [val_main_v14_apply, val_main_v12_apply, val_main_v13_apply, val_main_call0_v1_apply, val_main_call0_v0_apply,
    val_main_cst_2_apply, val_main_v11_apply, val_main_cst_1_apply, hn]
  show ∃ r : ℝ, Scalar.select (Ideal.cmp .ogt ((n : ℝ) : EReal) (Ideal.ofBits .f32 0x00000000#32))
    (Ideal.rsqrt ((n : ℝ) : EReal)) (Ideal.ofBits .f32 0x00000000#32) = (r : EReal)
  rw [Ideal.ofBits_zero_f32]
  exact select_rsqrt_real _

theorem dinv_real (n : Fin 50000) : ∃ r : ℝ, val_main_v14 (F := Ideal) x1 (ix1 n) = (r : EReal) :=
  dinv_real' x1 (ix1 n)

end Cert.ReferenceRows

end
-- ==== Proof.Bridge.lean ====
/-
  The kernel's result is the reference's, layer by layer.

  Write `A` for the normalized adjacency with self-loops: `(A h)[n, q] = Σ_{e lands on n} h[src e, q] · dinv[src e] · dinv[n]`.
  The reference computes `A (x W0) + b0`, normalizes it channel by channel (`((· − mean) · rsqrt (var + ε)) · γ + β`), clamps at
  zero, and repeats twice more (the last layer without the normalization). The kernel computes the same three products
  with the `dinv` factors split around the gather / scatter-add (one layer, two ways) and with each normalization folded
  into a scale and a shift applied inside the NEXT product's prologue: for real numbers
  `(((a + b) − mean) · r) · γ + β = a · (γ · r) + ((b − mean) · (γ · r) + β)`. Every entry is a real number because every input is
  (the precondition), the degrees are natural numbers, and `var + ε > 0`.
-/
import proofs.«130021_j22969485100000_2_alg».proof.Proof.KernelStages
import proofs.«130021_j22969485100000_2_alg».proof.Proof.GcnLayer
import proofs.«130021_j22969485100000_2_alg».proof.Proof.ScaledProductRows
import proofs.«130021_j22969485100000_2_alg».proof.Proof.NormalizedProductRows
import proofs.«130021_j22969485100000_2_alg».proof.Proof.LogitProductRows
import proofs.«130021_j22969485100000_2_alg».proof.Proof.InputFacts
import proofs.«130021_j22969485100000_2_alg».proof.Proof.ReferenceRows
import Idealize.ShloMosaic.Lib.ValueLayout

set_option maxRecDepth 16384

noncomputable section

namespace Cert.Bridge

open Cert.KernelIdeal Cert.KernelIdeal.Gen Cert.KernelIdeal.Stages Cert.GraphSums Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The edge array as launched. -/
abbrev edges : (⟨S2x600000, .i32⟩ : BufTy).Contents (Elt Ideal) := m ((c : Thread nD τ).loc main_arg1)

/-! ## The indices and the weights are the reference's -/

set_option maxHeartbeats 4000000 in
theorem src_term (V : Valuation τ sig (Elt Ideal)) : StableHlo.after hostOps0 V (Proc.devRef .tc main_v5)
    = val_main_v5 (F := Ideal) (V (Proc.devRef .tc main_arg1)) := by
  after_results
  rfl
set_option maxHeartbeats 4000000 in
theorem dst_term (V : Valuation τ sig (Elt Ideal)) : StableHlo.after hostOps0 V (Proc.devRef .tc main_v6)
    = val_main_v6 (F := Ideal) (V (Proc.devRef .tc main_arg1)) := by
  after_results
  rfl
set_option maxHeartbeats 4000000 in
theorem dinv_term (V : Valuation τ sig (Elt Ideal)) :
    StableHlo.after hostOps0_1 (StableHlo.after hostOps0 V) (Proc.devRef .tc main_v14)
    = val_main_v14 (F := Ideal) (V (Proc.devRef .tc main_arg1)) := by
  after_results
  dsimp only [TRef.toBuf, TRef.ofBuf, TRef.of, cast_eq, id]
  rfl

theorem src_eq : srcs m ρ c = val_main_v5 (F := Ideal) (edges m c) := by
  have h2 : W3 m ρ c (Proc.devRef .tc main_v5) = W2 m ρ c (Proc.devRef .tc main_v5) := by unwritten hostOps0_2
  have h1 : W2 m ρ c (Proc.devRef .tc main_v5) = W1 m ρ c (Proc.devRef .tc main_v5) := by unwritten hostOps0_1
  exact h2.trans (h1.trans (src_term (W0 m ρ c)))
theorem dst_eq : dsts m ρ c = val_main_v6 (F := Ideal) (edges m c) := by
  have h2 : W3 m ρ c (Proc.devRef .tc main_v6) = W2 m ρ c (Proc.devRef .tc main_v6) := by unwritten hostOps0_2
  have h1 : W2 m ρ c (Proc.devRef .tc main_v6) = W1 m ρ c (Proc.devRef .tc main_v6) := by unwritten hostOps0_1
  exact h2.trans (h1.trans (dst_term (W0 m ρ c)))
theorem dinv_eq : dinv m ρ c = val_main_v14 (F := Ideal) (edges m c) := by
  have h2 : W3 m ρ c (Proc.devRef .tc main_v14) = W2 m ρ c (Proc.devRef .tc main_v14) := by unwritten hostOps0_2
  exact h2.trans (dinv_term (W0 m ρ c))

theorem dinv_isReal (i : S50000.Idx) : IsReal (dinv m ρ c i) := by
  rw [dinv_eq]
  exact Cert.ReferenceRows.dinv_real' _ i

/-! ## Layer 0 -/

theorem product0_isReal (hF : Cert.InputFacts.ArgFacts m c) (i : S50000x128.Idx) : IsReal (val_main_v30 (F := Ideal) (m ((c : Thread nD τ).loc main_arg0)) (m ((c : Thread nD τ).loc main_arg2)) i) := by
  obtain ⟨p, q, rfl⟩ : ∃ (p : Fin 50000) (q : Fin 128), i = ix2 p q := ⟨i 0, i 1, eq_ix2 i⟩
  rw [Cert.ReferenceRows.product1_apply]
  exact dot_real _ _ (fun k => hF.real0 _) (fun k => hF.real2 _)

/-- Row `p` of the first product as the kernel leaves it: the reference's row times `dinv p`. -/
theorem rows0 (p : Fin 50000) (q : Fin 128) :
    W4 m ρ c (Proc.devRef .tc main_v16) (ix2 p q)
      = val_main_v30 (F := Ideal) (m ((c : Thread nD τ).loc main_arg0)) (m ((c : Thread nD τ).loc main_arg2)) (ix2 p q) * dinv m ρ c (ix1 p) := by
  have h := Cert.KernelIdeal.Rows0.array0 (V3 m ρ) c p q (m ((c : Thread nD τ).loc main_arg0)) (m ((c : Thread nD τ).loc main_arg2))
    (shapeCast S50000x1 (dinv m ρ c) shapeCasts_S50000_S50000x1) (arg0_W3 m ρ c).symm (arg2_W3 m ρ c).symm (dinvcol_W3 m ρ c).symm
  refine (congrFun (W4_arr m ρ c 3) (ix2 p q)).trans (h.trans ?_)
  rw [Cert.ReferenceRows.product1_apply, shapeCast_col_apply]

theorem layer0 (hF : Cert.InputFacts.ArgFacts m c) : W5 m ρ c (Proc.devRef .tc main_v30)
    = val_main_v43 (F := Ideal) (m ((c : Thread nD τ).loc main_arg0)) (edges m c) (m ((c : Thread nD τ).loc main_arg2)) := by
  rw [agg_W5]
  refine (layer_two_ways 128 Cert.KernelIdeal.Facts₀.scatter_S50000x128_S650000x1_S650000x128_1_0_0_1_wf Cert.KernelIdeal.Facts₀.gather_S50000x128_S650000x1_S650000x128_1_0_n_n_0_1_1128_wf
      Cert.ReferenceIdeal.Facts₀.gather_S50000_S650000x1_S650000_n_0_n_n_0_1_1_wf Cert.KernelIdeal.Facts₀.bcast_S_S650000 Cert.KernelIdeal.Facts₀.bcast_S650000_S650000x1_0 Cert.KernelIdeal.Facts₀.bcast_S_S50000x128
      Cert.KernelIdeal.Facts₀.bcast_S50000_S50000x1_0 Cert.KernelIdeal.Facts₀.bcast_S50000x1_S50000x128_0_1 Cert.ReferenceIdeal.Facts₀.bcast_S650000x1_S650000x128_0_1
      (srcs m ρ c) (dsts m ρ c) (dinv m ρ c) (val_main_v30 (F := Ideal) (m ((c : Thread nD τ).loc main_arg0)) (m ((c : Thread nD τ).loc main_arg2)))
      (W4 m ρ c (Proc.devRef .tc main_v16)) bitsLt_bf16_f32 (rows0 m ρ c) (product0_isReal m c hF) (dinv_isReal m ρ c)).trans ?_
  rw [src_eq, dst_eq, dinv_eq]
  rfl

/-! ## The folded normalization -/

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)

/-- The `1e-5` under the square root, read at a channel. -/
theorem eps_apply (k : Fin 128) :
    broadcastInDim S128 ![] bcast_S_S128 (constant (F := Ideal) S_ .f32 0x3727C5AC#32) (ix1 k) = Ideal.ofBits .f32 0x3727C5AC#32 :=
  broadcastInDim_apply _ bcast_S_S128 (constant (F := Ideal) S_ .f32 0x3727C5AC#32) (ix1 k) ix0 (fun a => a.elim0)

/-- `rsqrt (var + ε)` is a real number when `var` is a nonnegative real. -/
theorem rs_isReal (v : FVec Ideal S128 .f32) (hv : ∀ i, ∃ r : ℝ, v i = (r : EReal)) (hn : ∀ i, (0 : EReal) ≤ v i) (k : Fin 128) :
    IsReal (Ideal.rsqrt (v (ix1 k) + Ideal.ofBits .f32 0x3727C5AC#32)) := by
  obtain ⟨r, hr⟩ := hv (ix1 k)
  obtain ⟨e, he, hE⟩ := Cert.ReferenceRows.eps_pos
  have h0 := hn (ix1 k)
  rw [hr] at h0 ⊢
  rw [hE]
  have hr0 : (0 : ℝ) ≤ r := by exact_mod_cast h0
  refine isReal_rsqrt _ ⟨r + e, (EReal.coe_add r e).symm⟩ ?_
  rw [← EReal.coe_add]
  exact_mod_cast (by linarith : (0 : ℝ) < r + e)

/-- The kernel's scale-and-shift of a real `a` is the reference's normalization of it, channel by channel. -/
theorem fold_apply (a : EReal) (ha : IsReal a) (b mean g v beta : FVec Ideal S128 .f32)
    (hb : ∀ i, ∃ r : ℝ, b i = (r : EReal)) (hm : ∀ i, ∃ r : ℝ, mean i = (r : EReal)) (hg : ∀ i, ∃ r : ℝ, g i = (r : EReal))
    (hv : ∀ i, ∃ r : ℝ, v i = (r : EReal)) (hn : ∀ i, (0 : EReal) ≤ v i) (hbeta : ∀ i, ∃ r : ℝ, beta i = (r : EReal)) (k : Fin 128) :
    max (a * shapeCast S1x128 (scaleOf g v) shapeCasts_S128_S1x128 (ix2 (0 : Fin 1) k)
          + shapeCast S1x128 (shiftOf b mean g v beta) shapeCasts_S128_S1x128 (ix2 (0 : Fin 1) k)) 0
    = max ((((a + b (ix1 k)) - mean (ix1 k)) * Ideal.rsqrt (v (ix1 k) + Ideal.ofBits .f32 0x3727C5AC#32)) * g (ix1 k) + beta (ix1 k))
        (Ideal.ofBits .f32 0x00000000#32) := by
  rw [shapeCast_a_1a_apply, shapeCast_a_1a_apply, Ideal.ofBits_zero_f32]
  show max (a * (g (ix1 k) * Ideal.rsqrt (v (ix1 k) + broadcastInDim S128 ![] bcast_S_S128 (constant (F := Ideal) S_ .f32 0x3727C5AC#32) (ix1 k)))
        + ((b (ix1 k) - mean (ix1 k)) * (g (ix1 k) * Ideal.rsqrt (v (ix1 k) + broadcastInDim S128 ![] bcast_S_S128 (constant (F := Ideal) S_ .f32 0x3727C5AC#32) (ix1 k))) + beta (ix1 k))) 0 = _
  rw [eps_apply]
  exact (bn_fold a (b (ix1 k)) (mean (ix1 k)) _ (g (ix1 k)) (beta (ix1 k)) ha (hb _) (hm _) (rs_isReal v hv hn k) (hg _) (hbeta _)).symm

/-! ## Layer 1 -/

theorem out0_isReal (hF : Cert.InputFacts.ArgFacts m c) (i : S50000x128.Idx) : IsReal (val_main_v43 (F := Ideal) x0 x1 x2 i) :=
  layer_real 128 Cert.KernelIdeal.Facts₀.scatter_S50000x128_S650000x1_S650000x128_1_0_0_1_wf Cert.KernelIdeal.Facts₀.gather_S50000x128_S650000x1_S650000x128_1_0_n_n_0_1_1128_wf
    Cert.ReferenceIdeal.Facts₀.gather_S50000_S650000x1_S650000_n_0_n_n_0_1_1_wf Cert.KernelIdeal.Facts₀.bcast_S_S650000 Cert.KernelIdeal.Facts₀.bcast_S650000_S650000x1_0 Cert.KernelIdeal.Facts₀.bcast_S_S50000x128
    Cert.ReferenceIdeal.Facts₀.bcast_S650000x1_S650000x128_0_1
    (val_main_v5 (F := Ideal) x1) (val_main_v6 (F := Ideal) x1) (val_main_v14 (F := Ideal) x1) (val_main_v30 (F := Ideal) x0 x2)
    (product0_isReal m c hF) (fun i => Cert.ReferenceRows.dinv_real' _ i) i

theorem hidden1 (hF : Cert.InputFacts.ArgFacts m c) (p : Fin 50000) (k : Fin 128) :
    max (val_main_v43 (F := Ideal) x0 x1 x2 (ix2 p k) * shapeCast S1x128 (scaleOf x4 x7) shapeCasts_S128_S1x128 (ix2 (0 : Fin 1) k)
          + shapeCast S1x128 (shiftOf x3 x6 x4 x7 x5) shapeCasts_S128_S1x128 (ix2 (0 : Fin 1) k)) 0
    = val_main_v62 (F := Ideal) x0 x1 x2 x3 x4 x5 x6 x7 (ix2 p k) := by
  rw [Cert.ReferenceRows.hidden1_apply]
  exact fold_apply _ (out0_isReal m c hF _) x3 x6 x4 x7 x5 hF.real3 hF.real6 hF.real4 hF.real7 hF.nonneg7 hF.real5 k

theorem hidden1_isReal (hF : Cert.InputFacts.ArgFacts m c) (p : Fin 50000) (k : Fin 128) : IsReal (val_main_v62 (F := Ideal) x0 x1 x2 x3 x4 x5 x6 x7 (ix2 p k)) := by
  rw [Cert.ReferenceRows.hidden1_apply, Ideal.ofBits_zero_f32]
  exact ((((((out0_isReal m c hF _).add (hF.real3 _)).sub (hF.real6 _)).mul (rs_isReal x7 hF.real7 hF.nonneg7 k)).mul (hF.real4 _)).add (hF.real5 _)).max IsReal.zero

theorem product1_isReal (hF : Cert.InputFacts.ArgFacts m c) (i : S50000x128.Idx) : IsReal (val_main_v89 (F := Ideal) x0 x1 x2 x3 x4 x5 x6 x7 x8 i) := by
  obtain ⟨p, q, rfl⟩ : ∃ (p : Fin 50000) (q : Fin 128), i = ix2 p q := ⟨i 0, i 1, eq_ix2 i⟩
  rw [Cert.ReferenceRows.product2_apply]
  exact dot_real _ _ (fun k => hidden1_isReal m c hF p k) (fun k => hF.real8 _)

theorem rows1 (hF : Cert.InputFacts.ArgFacts m c) (p : Fin 50000) (q : Fin 128) :
    W6 m ρ c (Proc.devRef .tc main_v41) (ix2 p q) = val_main_v89 (F := Ideal) x0 x1 x2 x3 x4 x5 x6 x7 x8 (ix2 p q) * dinv m ρ c (ix1 p) := by
  have h := Cert.KernelIdeal.Rows1.array1 (V5 m ρ) c p q (val_main_v43 (F := Ideal) x0 x1 x2)
    (shapeCast S1x128 (scaleOf x4 x7) shapeCasts_S128_S1x128) (shapeCast S1x128 (shiftOf x3 x6 x4 x7 x5) shapeCasts_S128_S1x128) x8
    (shapeCast S50000x1 (dinv m ρ c) shapeCasts_S50000_S50000x1)
    (layer0 m ρ c hF).symm (scale_W5 m ρ c).symm (shift_W5 m ρ c).symm (arg8_W5 m ρ c).symm (col_W5 m ρ c).symm
  refine (congrFun (W6_arr m ρ c 5) (ix2 p q)).trans (h.trans ?_)
  rw [Cert.ReferenceRows.product2_apply, shapeCast_col_apply]
  exact congrArg (fun s : EReal => s * dinv m ρ c (ix1 p)) (Finset.sum_congr rfl (fun k _ => by rw [hidden1 m c hF p k]))

theorem layer1 (hF : Cert.InputFacts.ArgFacts m c) : W7 m ρ c (Proc.devRef .tc main_v55) = val_main_v102 (F := Ideal) x0 x1 x2 x3 x4 x5 x6 x7 x8 := by
  rw [agg_W7]
  refine (layer_two_ways 128 Cert.KernelIdeal.Facts₀.scatter_S50000x128_S650000x1_S650000x128_1_0_0_1_wf Cert.KernelIdeal.Facts₀.gather_S50000x128_S650000x1_S650000x128_1_0_n_n_0_1_1128_wf
      Cert.ReferenceIdeal.Facts₀.gather_S50000_S650000x1_S650000_n_0_n_n_0_1_1_wf Cert.KernelIdeal.Facts₀.bcast_S_S650000 Cert.KernelIdeal.Facts₀.bcast_S650000_S650000x1_0 Cert.KernelIdeal.Facts₀.bcast_S_S50000x128
      Cert.KernelIdeal.Facts₀.bcast_S50000_S50000x1_0 Cert.KernelIdeal.Facts₀.bcast_S50000x1_S50000x128_0_1 Cert.ReferenceIdeal.Facts₀.bcast_S650000x1_S650000x128_0_1
      (srcs m ρ c) (dsts m ρ c) (dinv m ρ c) (val_main_v89 (F := Ideal) x0 x1 x2 x3 x4 x5 x6 x7 x8)
      (W6 m ρ c (Proc.devRef .tc main_v41)) bitsLt_bf16_f32 (rows1 m ρ c hF) (product1_isReal m c hF) (dinv_isReal m ρ c)).trans ?_
  rw [src_eq, dst_eq, dinv_eq]
  rfl

/-! ## Layer 2 and the result -/

theorem out1_isReal (hF : Cert.InputFacts.ArgFacts m c) (i : S50000x128.Idx) : IsReal (val_main_v102 (F := Ideal) x0 x1 x2 x3 x4 x5 x6 x7 x8 i) :=
  layer_real 128 Cert.KernelIdeal.Facts₀.scatter_S50000x128_S650000x1_S650000x128_1_0_0_1_wf Cert.KernelIdeal.Facts₀.gather_S50000x128_S650000x1_S650000x128_1_0_n_n_0_1_1128_wf
    Cert.ReferenceIdeal.Facts₀.gather_S50000_S650000x1_S650000_n_0_n_n_0_1_1_wf Cert.KernelIdeal.Facts₀.bcast_S_S650000 Cert.KernelIdeal.Facts₀.bcast_S650000_S650000x1_0 Cert.KernelIdeal.Facts₀.bcast_S_S50000x128
    Cert.ReferenceIdeal.Facts₀.bcast_S650000x1_S650000x128_0_1
    (val_main_v5 (F := Ideal) x1) (val_main_v6 (F := Ideal) x1) (val_main_v14 (F := Ideal) x1) (val_main_v89 (F := Ideal) x0 x1 x2 x3 x4 x5 x6 x7 x8)
    (product1_isReal m c hF) (fun i => Cert.ReferenceRows.dinv_real' _ i) i

theorem hidden2 (hF : Cert.InputFacts.ArgFacts m c) (p : Fin 50000) (k : Fin 128) :
    max (val_main_v102 (F := Ideal) x0 x1 x2 x3 x4 x5 x6 x7 x8 (ix2 p k) * shapeCast S1x128 (scaleOf x10 x13) shapeCasts_S128_S1x128 (ix2 (0 : Fin 1) k)
          + shapeCast S1x128 (shiftOf x9 x12 x10 x13 x11) shapeCasts_S128_S1x128 (ix2 (0 : Fin 1) k)) 0
    = val_main_v121 (F := Ideal) x0 x1 x2 x3 x4 x5 x6 x7 x8 x9 x10 x11 x12 x13 (ix2 p k) := by
  rw [Cert.ReferenceRows.hidden2_apply]
  exact fold_apply _ (out1_isReal m c hF _) x9 x12 x10 x13 x11 hF.real9 hF.real12 hF.real10 hF.real13 hF.nonneg13 hF.real11 k

theorem hidden2_isReal (hF : Cert.InputFacts.ArgFacts m c) (p : Fin 50000) (k : Fin 128) : IsReal (val_main_v121 (F := Ideal) x0 x1 x2 x3 x4 x5 x6 x7 x8 x9 x10 x11 x12 x13 (ix2 p k)) := by
  rw [Cert.ReferenceRows.hidden2_apply, Ideal.ofBits_zero_f32]
  exact ((((((out1_isReal m c hF _).add (hF.real9 _)).sub (hF.real12 _)).mul (rs_isReal x13 hF.real13 hF.nonneg13 k)).mul (hF.real10 _)).add (hF.real11 _)).max IsReal.zero

theorem product2_isReal (hF : Cert.InputFacts.ArgFacts m c) (i : S50000x64.Idx) : IsReal (val_main_v148 (F := Ideal) x0 x1 x2 x3 x4 x5 x6 x7 x8 x9 x10 x11 x12 x13 x14 i) := by
  obtain ⟨p, q, rfl⟩ : ∃ (p : Fin 50000) (q : Fin 64), i = ix2 p q := ⟨i 0, i 1, eq_ix2 i⟩
  rw [Cert.ReferenceRows.product3_apply]
  exact dot_real _ _ (fun k => hidden2_isReal m c hF p k) (fun k => hF.real14 _)

theorem rows2 (hF : Cert.InputFacts.ArgFacts m c) (p : Fin 50000) (q : Fin 64) :
    W8 m ρ c (Proc.devRef .tc main_v66) (ix2 p q) = val_main_v148 (F := Ideal) x0 x1 x2 x3 x4 x5 x6 x7 x8 x9 x10 x11 x12 x13 x14 (ix2 p q) * dinv m ρ c (ix1 p) := by
  have h := Cert.KernelIdeal.Rows2.array2 (V7 m ρ) c p q (val_main_v102 (F := Ideal) x0 x1 x2 x3 x4 x5 x6 x7 x8)
    (shapeCast S1x128 (scaleOf x10 x13) shapeCasts_S128_S1x128) (shapeCast S1x128 (shiftOf x9 x12 x10 x13 x11) shapeCasts_S128_S1x128) x14
    (shapeCast S50000x1 (dinv m ρ c) shapeCasts_S50000_S50000x1)
    (layer1 m ρ c hF).symm (scale_W7 m ρ c).symm (shift_W7 m ρ c).symm (arg14_W7 m ρ c).symm (col_W7 m ρ c).symm
  refine (congrFun (W8_arr m ρ c 5) (ix2 p q)).trans (h.trans ?_)
  rw [Cert.ReferenceRows.product3_apply, shapeCast_col_apply]
  exact congrArg (fun s : EReal => s * dinv m ρ c (ix1 p)) (Finset.sum_congr rfl (fun k _ => by rw [hidden2 m c hF p k]))

theorem layer2 (hF : Cert.InputFacts.ArgFacts m c) :
    agg64 (srcs m ρ c) (dsts m ρ c) (dinv m ρ c) (W8 m ρ c (Proc.devRef .tc main_v66))
    = val_main_v161 (F := Ideal) x0 x1 x2 x3 x4 x5 x6 x7 x8 x9 x10 x11 x12 x13 x14 := by
  refine (layer_two_ways 64 Cert.KernelIdeal.Facts₀.scatter_S50000x64_S650000x1_S650000x64_1_0_0_1_wf Cert.KernelIdeal.Facts₀.gather_S50000x64_S650000x1_S650000x64_1_0_n_n_0_1_164_wf
      Cert.ReferenceIdeal.Facts₀.gather_S50000_S650000x1_S650000_n_0_n_n_0_1_1_wf Cert.KernelIdeal.Facts₀.bcast_S_S650000 Cert.KernelIdeal.Facts₀.bcast_S650000_S650000x1_0 Cert.KernelIdeal.Facts₀.bcast_S_S50000x64
      Cert.KernelIdeal.Facts₀.bcast_S50000_S50000x1_0 Cert.KernelIdeal.Facts₀.bcast_S50000x1_S50000x64_0_1 Cert.ReferenceIdeal.Facts₀.bcast_S650000x1_S650000x64_0_1
      (srcs m ρ c) (dsts m ρ c) (dinv m ρ c) (val_main_v148 (F := Ideal) x0 x1 x2 x3 x4 x5 x6 x7 x8 x9 x10 x11 x12 x13 x14)
      (W8 m ρ c (Proc.devRef .tc main_v66)) bitsLt_bf16_f32 (rows2 m ρ c hF) (product2_isReal m c hF) (dinv_isReal m ρ c)).trans ?_
  rw [src_eq, dst_eq, dinv_eq]
  rfl

/-- THE RESULT: what the kernel's run ends with is the reference's result term of the same arguments. -/
theorem result_eq (hF : Cert.InputFacts.ArgFacts m c) : W9 m ρ c (Proc.devRef .tc main_v83) = val_main_v164 (F := Ideal) x0 x1 x2 x3 x4 x5 x6 x7 x8 x9 x10 x11 x12 x13 x14 x15 := by
  rw [result_W9, layer2 m ρ c hF]
  rfl

end Cert.Bridge

end
-- ==== Proof.lean ====
/-
  A three-layer graph convolution (GCNConv + BatchNorm + ReLU, twice, then GCNConv) against its reference, over the
  extended reals, for finite inputs with nonnegative running variances.

  Each layer is `out = A (h W) + b`, with `A` the symmetrically normalized adjacency with self-loops,
  `A[n, s] = Σ_{e : s → n} dinv s · dinv n`. The reference gathers the product's rows at the edge sources, multiplies each by
  its edge's weight `dinv (src e) · dinv (dst e)` and scatter-adds at the destinations. The kernel computes the product
  in a row-tiled pass that also scales row `p` by `dinv p`, gathers and scatter-adds the scaled rows, and scales node
  `n`'s sum by `dinv n`: the same sum, because an edge that is not dropped lands on its own destination and a real
  constant moves out of a finite sum of reals. The normalization between layers, `(((a + b) − mean) · rsqrt (var + ε)) · γ + β`,
  reaches the kernel folded into `a · (γ · rsqrt (var + ε)) + ((b − mean) · (γ · rsqrt (var + ε)) + β)` inside the next
  product's pass: equal for real numbers, which is where `var ≥ 0` (so that `var + ε > 0`) is used. A format change
  (f32 ↔ bf16) is the identity on extended reals, and the matrix unit's product is the host's.
-/
import proofs.«130021_j22969485100000_2_alg».proof.Defs
import proofs.«130021_j22969485100000_2_alg».proof.Proof.Gen.Kernel
import proofs.«130021_j22969485100000_2_alg».proof.Proof.Gen.Kernel.Skeleton
import proofs.«130021_j22969485100000_2_alg».proof.Proof.Gen.Kernel.Launch
import proofs.«130021_j22969485100000_2_alg».proof.Proof.Gen.Kernel.Points
import proofs.«130021_j22969485100000_2_alg».proof.Proof.Gen.Kernel.Frame
import proofs.«130021_j22969485100000_2_alg».proof.Proof.Gen.KernelIdeal
import proofs.«130021_j22969485100000_2_alg».proof.Proof.Gen.KernelIdeal.Skeleton
import proofs.«130021_j22969485100000_2_alg».proof.Proof.Gen.KernelIdeal.Launch
import proofs.«130021_j22969485100000_2_alg».proof.Proof.Gen.KernelIdeal.Points
import proofs.«130021_j22969485100000_2_alg».proof.Proof.Gen.KernelIdeal.Frame
import proofs.«130021_j22969485100000_2_alg».proof.Proof.Gen.ReferenceIdeal
import proofs.«130021_j22969485100000_2_alg».proof.Proof.Gen.Pre_finite_inputs
import proofs.«130021_j22969485100000_2_alg».proof.Proof.KernelRun
import proofs.«130021_j22969485100000_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read over the extended reals: no rewrite to account for. -/
theorem preserves : Cert.preserves_Kernel_KernelIdeal := trivial

/-- Both runs end, the kernel's at the last boundary's contents of its result buffer and the reference's at its composed
    term; from memories agreeing on the arguments these are one array (`Cert.Bridge.result_eq`). -/
theorem algebraic : Cert.algebraic_KernelIdeal_ReferenceIdeal := by
  intro m ρ m' ρ' hpre hagree
  refine ⟨fun c => Cert.KernelIdeal.Gen.W9 m ρ c (Proc.devRef .tc Cert.KernelIdeal.main_v83),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15⟩ := hagree c
  rw [Cert.ReferenceIdeal.ReadP.val_main_v164_eq, a0, a1, a2, a3, a4, a5, a6, a7, a8, a9, a10, a11, a12, a13, a14, a15]
  exact (Cert.Bridge.result_eq m ρ c (Cert.InputFacts.of_pre m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
